-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S10000x64 : Shape := ⟨2, ![10000, 64]⟩
abbrev S1600000x64 : Shape := ⟨2, ![1600000, 64]⟩
abbrev S16000x64 : Shape := ⟨2, ![16000, 64]⟩
abbrev S16000x1 : Shape := ⟨2, ![16000, 1]⟩
abbrev S16000 : Shape := ⟨1, ![16000]⟩
abbrev S100000x1 : Shape := ⟨2, ![100000, 1]⟩
abbrev S1x32 : Shape := ⟨2, ![1, 32]⟩
abbrev S100000x32 : Shape := ⟨2, ![100000, 32]⟩
abbrev S10000x32 : Shape := ⟨2, ![10000, 32]⟩
abbrev S1600000x32 : Shape := ⟨2, ![1600000, 32]⟩

abbrev nBuf : Space → Nat
  | .hbm => 104
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S1x32, .f32⟩
  | .hbm, ⟨66, _⟩ => ⟨S100000x32, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x1, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x32, .f32⟩
  | .hbm, ⟨95, _⟩ => ⟨S1600000x32, .f32⟩
  | .hbm, ⟨96, _⟩ => ⟨S1600000x32, .f32⟩
  | .hbm, ⟨97, _⟩ => ⟨S_, .f32⟩
  | .hbm, ⟨98, _⟩ => ⟨S100000x32, .f32⟩
  | .hbm, ⟨99, _⟩ => ⟨S1600000x1, .i32⟩
  | .hbm, ⟨100, _⟩ => ⟨S100000x32, .f32⟩
  | .hbm, ⟨101, _⟩ => ⟨S100000x1, .f32⟩
  | .hbm, ⟨102, _⟩ => ⟨S100000x32, .f32⟩
  | .hbm, ⟨103, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S16000x64, .f32⟩
  | .local _ .vmem, ⟨7, _⟩ => ⟨S16000x64, .f32⟩
  | .local _ .vmem, ⟨8, _⟩ => ⟨S16000x64, .f32⟩
  | .local _ .vmem, ⟨9, _⟩ => ⟨S16000x64, .f32⟩
  | .local _ .vmem, ⟨10, _⟩ => ⟨S16000x1, .f32⟩
  | .local _ .vmem, ⟨11, _⟩ => ⟨S16000x1, .f32⟩
  | .local _ .vmem, ⟨12, _⟩ => ⟨S10000x64, .f32⟩
  | .local _ .vmem, ⟨13, _⟩ => ⟨S10000x64, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | .local _ .vmem, ⟨18, _⟩ => ⟨S16000x64, .f32⟩
  | .local _ .vmem, ⟨19, _⟩ => ⟨S16000x64, .f32⟩
  | .local _ .vmem, ⟨20, _⟩ => ⟨S16000x64, .f32⟩
  | .local _ .vmem, ⟨21, _⟩ => ⟨S16000x64, .f32⟩
  | .local _ .vmem, ⟨22, _⟩ => ⟨S16000x1, .f32⟩
  | .local _ .vmem, ⟨23, _⟩ => ⟨S16000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  reduces_S16000x64_S16000 : S16000x64.Reduces [1] S16000
  shapeCasts_S16000_S16000x1 : S16000.ShapeCasts S16000x1
  inb_S16000x1_S16000x1_0_0 : ∀ a, (![0, 0] : Fin 2 → Nat) a + S16000x1.size a ≤ S16000x1.size a
  h_S16000x1 : 0 < S16000x1.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x64.size a ≤ S1600000x64.size a
  hwx1_1 : ∀ i : grid1.Coords, EltTy.bits .f32 = 32 ∨ (Rect.block (s := S1600000x64) S16000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x1.size a ≤ S1600000x1.size a
  hwx1_2 : ∀ i : grid1.Coords, EltTy.bits .f32 = 32 ∨ (Rect.block (s := S1600000x1) S16000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S1600000x64.size a
  hwx3_0 : ∀ i : grid3.Coords, EltTy.bits .f32 = 32 ∨ (Rect.block (s := S1600000x64) S16000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x64.size a ≤ S1600000x64.size a
  hwx3_1 : ∀ i : grid3.Coords, EltTy.bits .f32 = 32 ∨ (Rect.block (s := S1600000x64) S16000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x1.size a ≤ S1600000x1.size a
  hwx3_2 : ∀ i : grid3.Coords, EltTy.bits .f32 = 32 ∨ (Rect.block (s := S1600000x1) S16000x1.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S16000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S16000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S16000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S16000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S1x64, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S1600000x64, .f32⟩
  | 34 => ⟨S_, .f32⟩
  | 35 => ⟨S1600000, .f32⟩
  | 36 => ⟨S1600000, .f32⟩
  | 37 => ⟨S1600000, .f32⟩
  | 38 => ⟨S_, .f32⟩
  | 39 => ⟨S1600000, .f32⟩
  | 40 => ⟨S1600000, .f32⟩
  | 41 => ⟨S1600000, .f32⟩
  | 42 => ⟨S_, .f32⟩
  | 43 => ⟨S1600000, .f32⟩
  | 44 => ⟨S1600000, .f32⟩
  | 45 => ⟨S_, .f32⟩
  | 46 => ⟨S1600000, .f32⟩
  | 47 => ⟨S1600000, .f32⟩
  | 48 => ⟨S1600000, .f32⟩
  | 49 => ⟨S_, .f32⟩
  | 50 => ⟨S1600000, .f32⟩
  | 51 => ⟨S1600000, .f32⟩
  | 52 => ⟨S_, .f32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S100000x1, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x1600000, .i32⟩
  | 88 => ⟨S1600000, .i32⟩
  | 89 => ⟨S1x1600000, .i32⟩
  | 90 => ⟨S1600000, .i32⟩
  | 91 => ⟨S100000x32, .f32⟩
  | 92 => ⟨S1x32, .f32⟩
  | 93 => ⟨S100000x32, .f32⟩
  | 94 => ⟨S100000x32, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x64, .f32⟩
  | 114 => ⟨S1600000x64, .f32⟩
  | 115 => ⟨S_, .f32⟩
  | 116 => ⟨S1600000, .f32⟩
  | 117 => ⟨S1600000, .f32⟩
  | 118 => ⟨S1600000, .f32⟩
  | 119 => ⟨S_, .f32⟩
  | 120 => ⟨S1600000, .f32⟩
  | 121 => ⟨S1600000, .f32⟩
  | 122 => ⟨S1600000, .f32⟩
  | 123 => ⟨S_, .f32⟩
  | 124 => ⟨S1600000, .f32⟩
  | 125 => ⟨S1600000, .f32⟩
  | 126 => ⟨S_, .f32⟩
  | 127 => ⟨S1600000, .f32⟩
  | _ => ⟨S100000x64, .f32⟩

abbrev hbmTy0_1 (i : Nat) : BufTy := match i % 128 with
  | 0 => ⟨S1600000, .f32⟩
  | 1 => ⟨S1600000, .f32⟩
  | 2 => ⟨S_, .f32⟩
  | 3 => ⟨S1600000, .f32⟩
  | 4 => ⟨S1600000, .f32⟩
  | 5 => ⟨S_, .f32⟩
  | 6 => ⟨S1600000, .f32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1600000x1, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S100000x1, .f32⟩
  | 35 => ⟨S100000x32, .f32⟩
  | 36 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call3_v0 : Ref sig .tc := ⟨.hbm, 114, rfl⟩
abbrev main_call3_cst : Ref sig .tc := ⟨.hbm, 115, rfl⟩
abbrev main_call3_v1 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_c_23 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_25 : Ref sig .tc := ⟨.hbm, 152, rfl⟩
abbrev main_v109 : Ref sig .tc := ⟨.hbm, 153, rfl⟩
abbrev main_cst_26 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_27 : Ref sig .tc := ⟨.hbm, 158, rfl⟩
abbrev main_call4_v0 : Ref sig .tc := ⟨.hbm, 159, rfl⟩
abbrev main_call4_v1 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The run of the whole program with its result named.

  The program is thirteen segments in order: stretches of host operations and four kernel regions. Each segment
  takes the contents of the device's buffers at its entry to the contents at its exit: a host stretch to the
  fold of its operations over the entry contents, a region to the entry contents with its arrays replaced by
  what its write-backs leave. From any launch memory every weakly fair execution terminates without a fault
  in a state whose unscoped buffers hold the last boundary's contents; so the result buffer holds the last
  boundary's contents at its reference, and each argument array is as launched.
-/
import proofs.«144737_j16149077033547_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting; its result buffer ends
    at the last boundary's contents, and its argument arrays end as launched. -/
theorem run : θ_run defs (onTc (τ := τ) (main (F := F))) ⟨m, fun _ => 0, ρ⟩ (fun r => ∀ c : Dev nD,
      r.2.mem ((c.tc : Thread nD τ).loc main_v75) = W13 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v75 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Run

end
-- ==== Proof.Dilation.lean ====
/-
  The scalar laws of the time-dilation weight on the extended reals.

  For an edge whose endpoint features differ by a vector of norm n (any extended real: the norm of a
  difference of infinite features may be +∞), the relative velocity is v = tanh n · c with c the cap word
  (a real in [0, 1]), and the weight is the square root of s = 1 − v² + ε with ε a positive real.
  Since tanh maps every extended real into [−1, 1], v² ≤ 1 and s is a positive REAL whatever n is; hence
  √s is a positive real, and taking the reciprocal twice gives it back: 1 / (1 / √s) = √s.  No finiteness
  of the inputs enters.

  The degree normalisation: for a divisor b ≠ 0 the quotient a / b is a · b⁻¹ and 1 / b is b⁻¹, so
  a · (1 / b) = a / b for every extended real a; a degree clipped from below at 1 is at least 1, so not 0.
-/
import Idealize.ShloMosaic.PureOps.Ideal
import Mathlib.Analysis.SpecialFunctions.Trigonometric.DerivHyp
import Mathlib.Data.EReal.Inv

noncomputable section

namespace Cert.Dilation

open Idealize.ShloMosaic

/-- The word of `1.0` denotes 1. -/
theorem one_word : Ideal.ofBits .f32 0x3F800000#32 = 1 := by
  simp [Ideal.ofBits, Ideal.ieee, -EReal.coe_mul]; norm_num

/-- The word of `0.0` denotes 0. -/
theorem zero_word : Ideal.ofBits .f32 0x00000000#32 = 0 := by
  simp [Ideal.ofBits, Ideal.ieee]

/-- The velocity cap's word (the float nearest 0.9) denotes a real in [0, 1]. -/
theorem cap_word : ∃ r : ℝ, 0 ≤ r ∧ r ≤ 1 ∧ Ideal.ofBits .f32 0x3F666666#32 = (r : EReal) := by
  refine ⟨15099494 / 16777216, by norm_num, by norm_num, ?_⟩
  simp [Ideal.ofBits, Ideal.ieee, -EReal.coe_mul]; norm_num

/-- The regulariser's word (the float nearest 1e-6) denotes a positive real. -/
theorem eps_word : ∃ r : ℝ, 0 < r ∧ Ideal.ofBits .f32 0x358637BD#32 = (r : EReal) := by
  refine ⟨8796093 / 8796093022208, by norm_num, ?_⟩
  simp [Ideal.ofBits, Ideal.ieee, -EReal.coe_mul]; norm_num

/-- `tanh` of any extended real is a real in [−1, 1]. -/
theorem tanh_real (n : EReal) : ∃ t : ℝ, -1 ≤ t ∧ t ≤ 1 ∧ Ideal.tanh n = (t : EReal) := by
  induction n using EReal.rec with
  | bot => exact ⟨-1, le_refl _, by norm_num, by rw [Ideal.tanh_bot, EReal.coe_neg, EReal.coe_one]⟩
  | coe r => exact ⟨Real.tanh r, (Real.neg_one_lt_tanh r).le, (Real.tanh_lt_one r).le, rfl⟩
  | top => exact ⟨1, by norm_num, le_refl _, by rw [Ideal.tanh_top, EReal.coe_one]⟩

/-- The radicand 1 − (tanh n · c)² + ε is a positive real, for every extended real n. -/
theorem radicand_real (n : EReal) : ∃ s : ℝ, 0 < s ∧
    Ideal.ofBits .f32 0x3F800000#32
        - Ideal.tanh n * Ideal.ofBits .f32 0x3F666666#32 * (Ideal.tanh n * Ideal.ofBits .f32 0x3F666666#32)
        + Ideal.ofBits .f32 0x358637BD#32 = (s : EReal) := by
  obtain ⟨t, ht0, ht1, ht⟩ := tanh_real n
  obtain ⟨c, hc0, hc1, hc⟩ := cap_word
  obtain ⟨e, he, hee⟩ := eps_word
  refine ⟨1 - t * c * (t * c) + e, ?_, ?_⟩
  · have h1 : t * c * (t * c) ≤ 1 := by
      have : |t * c| ≤ 1 := by
        rw [abs_mul]
        exact mul_le_one₀ (abs_le.mpr ⟨ht0, ht1⟩) (abs_nonneg c) (abs_le.mpr ⟨by linarith, hc1⟩)
      have h2 : t * c * (t * c) = |t * c| * |t * c| := (abs_mul_abs_self (t * c)).symm
      rw [h2]
      exact mul_le_one₀ this (abs_nonneg _) this
    linarith
  · rw [ht, hc, hee, one_word]; norm_cast

/-- The weight: the reciprocal of the reciprocal of √s is √s, for the radicand s of any norm n. -/
theorem recip_recip_sqrt (n : EReal) :
    Ideal.div (Ideal.ofBits .f32 0x3F800000#32) (Ideal.div (Ideal.ofBits .f32 0x3F800000#32)
      (Ideal.sqrt (Ideal.ofBits .f32 0x3F800000#32
        - Ideal.tanh n * Ideal.ofBits .f32 0x3F666666#32 * (Ideal.tanh n * Ideal.ofBits .f32 0x3F666666#32)
        + Ideal.ofBits .f32 0x358637BD#32)))
    = Ideal.sqrt (Ideal.ofBits .f32 0x3F800000#32
        - Ideal.tanh n * Ideal.ofBits .f32 0x3F666666#32 * (Ideal.tanh n * Ideal.ofBits .f32 0x3F666666#32)
        + Ideal.ofBits .f32 0x358637BD#32) := by
  obtain ⟨s, hs, hse⟩ := radicand_real n
  rw [hse, Ideal.sqrt_coe, if_neg (not_lt.mpr hs.le), one_word]
  have hy : Real.sqrt s ≠ 0 := (Real.sqrt_pos.mpr hs).ne'
  have h1 : Ideal.div 1 ((Real.sqrt s : ℝ) : EReal) = (((Real.sqrt s)⁻¹ : ℝ) : EReal) := by
    rw [Ideal.div, if_neg (by exact_mod_cast hy), one_mul, EReal.coe_inv]
  rw [h1, Ideal.div, if_neg (by exact_mod_cast inv_ne_zero hy), one_mul, ← EReal.coe_inv, inv_inv]

/-- The weight of an edge whose endpoint features differ by a vector of norm `n`: √(1 − (tanh n · c)² + ε). -/
def weightOf (n : EReal) : EReal :=
  Ideal.sqrt (Ideal.ofBits .f32 0x3F800000#32
    - Ideal.tanh n * Ideal.ofBits .f32 0x3F666666#32 * (Ideal.tanh n * Ideal.ofBits .f32 0x3F666666#32)
    + Ideal.ofBits .f32 0x358637BD#32)

/-- The reciprocal of the reciprocal of the weight is the weight. -/
theorem recip_recip_weight (n : EReal) :
    Ideal.div (Ideal.ofBits .f32 0x3F800000#32) (Ideal.div (Ideal.ofBits .f32 0x3F800000#32) (weightOf n)) = weightOf n :=
  recip_recip_sqrt n

/-- A product with the reciprocal of a nonzero divisor is the quotient, for every extended real numerator. -/
theorem mul_recip (a b : EReal) (hb : b ≠ 0) : a * Ideal.div 1 b = Ideal.div a b := by
  rw [Ideal.div, if_neg hb, one_mul, Ideal.div, if_neg hb]

/-- A degree clipped from below at 1 is not 0. -/
theorem clip_ne_zero (d : EReal) : max (Ideal.ofBits .f32 0x3F800000#32) d ≠ 0 := by
  rw [one_word]
  exact (lt_of_lt_of_le zero_lt_one (le_max_left 1 d)).ne'

/-- The degree normalisation: multiplying by the reciprocal of the clipped degree is dividing by it. -/
theorem mul_recip_clip (a d : EReal) :
    a * Ideal.div (Ideal.ofBits .f32 0x3F800000#32) (max (Ideal.ofBits .f32 0x3F800000#32) d)
      = Ideal.div a (max (Ideal.ofBits .f32 0x3F800000#32) d) := by
  have h := mul_recip a _ (clip_ne_zero d)
  rw [one_word] at h ⊢
  exact h

end Cert.Dilation

end
-- ==== Proof.Spec.lean ====
/-
  What the two kernels compute, as functions of whole arrays read at an index.

  The dense layer: entry (p, q) of the result is row p of the features through the affine map of the weight
  matrix and the bias row, the sum over k of x (p, k) · w (k, q), plus b (0, q).

  The weight column: entry (e, 0) is the time-dilation weight of edge e, the function `weightOf` of the norm of the
  difference of its two endpoint feature rows, the norm being the square root of the sum over k of the squared
  differences.
-/
import Idealize.ShloMosaic.Lib.ValueIdx
import proofs.«144737_j16149077033547_2_alg».proof.Proof.Dilation

noncomputable section

namespace Cert.Spec

open Idealize.ShloMosaic Idealize.ShloMosaic.ValueIdx

variable {A K B E : ℕ}

/-- The dense layer of an [A, K] feature matrix, a [K, B] weight matrix and a [1, B] bias row. -/
def dense (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => (∑ k : Fin K, x (ix2 (j 0) k) * w (ix2 k (j 1))) + b (ix2 (0 : Fin 1) (j 1))

theorem dense_apply (x : (⟨2, ![A, K]⟩ : Shape).Idx → EReal) (w : (⟨2, ![K, B]⟩ : Shape).Idx → EReal)
    (b : (⟨2, ![1, B]⟩ : Shape).Idx → EReal) (p : Fin A) (q : Fin B) :
    dense x w b (ix2 p q) = (∑ k : Fin K, x (ix2 p k) * w (ix2 k q)) + b (ix2 (0 : Fin 1) q) := rfl

/-- The squared distance between the two endpoint feature rows of edge `e`. -/
def sqDist (fs fd : (⟨2, ![E, K]⟩ : Shape).Idx → EReal) (e : Fin E) : EReal :=
  ∑ k : Fin K, (fs (ix2 e k) - fd (ix2 e k)) * (fs (ix2 e k) - fd (ix2 e k))

/-- The weight column: at (e, 0) the weight of edge `e`. -/
def weightCol (fs fd : (⟨2, ![E, K]⟩ : Shape).Idx → EReal) : (⟨2, ![E, 1]⟩ : Shape).Idx → EReal :=
  fun j => Cert.Dilation.weightOf (Ideal.sqrt (sqDist fs fd (j 0)))

theorem weightCol_apply (fs fd : (⟨2, ![E, K]⟩ : Shape).Idx → EReal) (e : Fin E) (u : Fin 1) :
    weightCol fs fd (ix2 e u) = Cert.Dilation.weightOf (Ideal.sqrt (sqDist fs fd e)) := rfl

end Cert.Spec

end
-- ==== Proof.Stages.lean ====
/-
  The two layers' host stages as functions of whole arrays.

  Each layer gathers the rows of a dense-layer array `D` at the edges' sources, multiplies every gathered row by its
  edge's weight (a one-column array `Wt` repeated along the row), adds the products into the rows of the edges'
  destinations, and multiplies every row by the reciprocal of the destination's degree clipped from below at 1.
  Layer 1 ends with the maximum against zero. The index arrays (the edges' sources and destinations, wrapped when
  negative), the zero arrays, the degree and its clip are the reference's own stages, which both programs compute
  by the same operations; what is left open here is the pair (`D`, `Wt`) that a kernel region produces.
-/
import proofs.«144737_j16149077033547_2_alg».proof.Proof.Gen.ReferenceIdeal.Read
import proofs.«144737_j16149077033547_2_alg».proof.Proof.Spec

noncomputable section

namespace Cert.Stage

open Cert.ReferenceIdeal Cert.ReferenceIdeal.Gen Cert.ReferenceIdeal.Read Idealize.ShloMosaic

/-- The reciprocal of the clipped degree of every node. -/
def invDeg (x1 : (⟨S2x1600000, .i32⟩ : BufTy).Contents (Elt Ideal)) : FVec Ideal S100000 .f32 :=
  Host.divf (F := Ideal) (φ := .f32) (broadcastInDim (α := Ideal .f32) S100000 ![] bcast_S_S100000 (constant (F := Ideal) S_ .f32 0x3F800000#32))
    (val_main_v54 (F := Ideal) x1)

/-- Layer 1 before its maximum against zero. -/
def out1 (D : FVec Ideal S100000x64 .f32) (Wt : FVec Ideal S1600000x1 .f32)
    (x1 : (⟨S2x1600000, .i32⟩ : BufTy).Contents (Elt Ideal)) : FVec Ideal S100000x64 .f32 :=
  mulf (F := Ideal) (φ := .f32)
    (Host.scatterAdd (F := Ideal) (φ := .f32) scatter_S100000x64_S1600000x1_S1600000x64_1_0_0_1 (val_main_v47 (F := Ideal)) (val_main_v48 (F := Ideal) x1)
      (mulf (F := Ideal) (φ := .f32) (Host.gather (α := Ideal .f32) gather_S100000x64_S1600000x1_S1600000x64_1_0_n_n_0_1_164 D (val_main_v42 (F := Ideal) x1))
        (broadcastInDim (α := Ideal .f32) S1600000x64 ![0, 1] bcast_S1600000x1_S1600000x64_0_1 Wt)))
    (broadcastInDim (α := Ideal .f32) S100000x64 ![0, 1] bcast_S100000x1_S100000x64_0_1
      (broadcastInDim (α := Ideal .f32) S100000x1 ![0] bcast_S100000_S100000x1_0 (invDeg x1)))

/-- Layer 1: the hidden features. -/
def hidden (D : FVec Ideal S100000x64 .f32) (Wt : FVec Ideal S1600000x1 .f32)
    (x1 : (⟨S2x1600000, .i32⟩ : BufTy).Contents (Elt Ideal)) : FVec Ideal S100000x64 .f32 :=
  maximumf (F := Ideal) (φ := .f32) (out1 D Wt x1) (val_main_call2_v0 (F := Ideal))

/-- Layer 2. -/
def out2 (D : FVec Ideal S100000x32 .f32) (Wt : FVec Ideal S1600000x1 .f32)
    (x1 : (⟨S2x1600000, .i32⟩ : BufTy).Contents (Elt Ideal)) : FVec Ideal S100000x32 .f32 :=
  mulf (F := Ideal) (φ := .f32)
    (Host.scatterAdd (F := Ideal) (φ := .f32) scatter_S100000x32_S1600000x1_S1600000x32_1_0_0_1 (val_main_v106 (F := Ideal)) (val_main_v107 (F := Ideal) x1)
      (mulf (F := Ideal) (φ := .f32) (Host.gather (α := Ideal .f32) gather_S100000x32_S1600000x1_S1600000x32_1_0_n_n_0_1_132 D (val_main_v101 (F := Ideal) x1))
        (broadcastInDim (α := Ideal .f32) S1600000x32 ![0, 1] bcast_S1600000x1_S1600000x32_0_1 Wt)))
    (broadcastInDim (α := Ideal .f32) S100000x32 ![0, 1] bcast_S100000x1_S100000x32_0_1
      (broadcastInDim (α := Ideal .f32) S100000x1 ![0] bcast_S100000_S100000x1_0 (invDeg x1)))

end Cert.Stage

end
-- ==== Proof.KernelValueA.lean ====
/-
  The device's buffers at the boundaries between the program's segments, from the launch to the exit of the
  first edge-weight region.

  Between regions the host operations compute, from the edge-index argument alone, the edges' sources and
  destinations (rows 0 and 1 of the index array), the reciprocal of every node's clipped degree, and the bias
  row; none of these buffers is written again, so each keeps its value through every later segment. A region
  replaces exactly its output array, by what its write-backs leave, and keeps every other buffer.
-/
import proofs.«144737_j16149077033547_2_alg».proof.Proof.Gen.KernelIdeal.Frame
import proofs.«144737_j16149077033547_2_alg».proof.Proof.Stages
import Idealize.ShloMosaic.Lib.StableHlo.Run
set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The typed references of a called function

A called function's operations read and write their buffers through typed references, which transport a
buffer's contents along the equality of the buffer's type with the value's; for a literal buffer that equality
holds by computation and the transport is the identity. -/

theorem ofBuf_toBuf {T : BufTy} (x : TRef sig T) (v : T.Contents (Elt Ideal)) : x.ofBuf (x.toBuf v) = v := by
  obtain ⟨r, h1, h2, h3⟩ := x
  subst h1
  rfl

theorem toBuf_v8 (h1 h2 h3) (v : (⟨S100000, .f32⟩ : BufTy).Contents (Elt Ideal)) :
    (TRef.of (sig := sig) (T := ⟨S100000, .f32⟩) main_v8 h1 h2 h3).toBuf (Val := Elt Ideal) v = v := rfl
theorem ofBuf_v7 (h1 h2 h3) (v : (⟨S100000, .f32⟩ : BufTy).Contents (Elt Ideal)) :
    (TRef.of (sig := sig) (T := ⟨S100000, .f32⟩) main_v7 h1 h2 h3).ofBuf (Val := Elt Ideal) v = v := rfl
theorem ofBuf_cst1 (h1 h2 h3) (v : (⟨S_, .f32⟩ : BufTy).Contents (Elt Ideal)) :
    (TRef.of (sig := sig) (T := ⟨S_, .f32⟩) main_cst_1 h1 h2 h3).ofBuf (Val := Elt Ideal) v = v := rfl
theorem toBuf_v43 (h1 h2 h3) (v : (⟨S100000x64, .f32⟩ : BufTy).Contents (Elt Ideal)) :
    (TRef.of (sig := sig) (T := ⟨S100000x64, .f32⟩) main_v43 h1 h2 h3).toBuf (Val := Elt Ideal) v = v := rfl
theorem ofBuf_v42 (h1 h2 h3) (v : (⟨S100000x64, .f32⟩ : BufTy).Contents (Elt Ideal)) :
    (TRef.of (sig := sig) (T := ⟨S100000x64, .f32⟩) main_v42 h1 h2 h3).ofBuf (Val := Elt Ideal) v = v := rfl

/-! ## The degree and its clip -/

/-- The constant 1 the clip is called with. -/
theorem cst1_1 : W1 m ρ c (Proc.devRef .tc main_cst_1) = constant (F := Ideal) S_ .f32 0x3F800000#32 := by
  show StableHlo.after hostOps0 (W0 m ρ c) (Proc.devRef .tc main_cst_1) = _
  after_results

/-- Every node's degree: the number of edges whose destination it is. -/
theorem v7_1 : W1 m ρ c (Proc.devRef .tc main_v7) = Cert.ReferenceIdeal.Read.val_main_v53 (F := Ideal) (m ((c : Thread nD τ).loc main_arg1)) := by
  show StableHlo.after hostOps0 (W0 m ρ c) (Proc.devRef .tc main_v7) = _
  after_results <;> rfl

/-- The degree clipped from below at 1. -/
theorem v8_2 : W2 m ρ c (Proc.devRef .tc main_v8) = Cert.ReferenceIdeal.Read.val_main_v54 (F := Ideal) (m ((c : Thread nD τ).loc main_arg1)) := by
  have e1 := cst1_1 m ρ c
  have e7 := v7_1 m ρ c
  show StableHlo.after hostOps0_1 (W1 m ρ c) (Proc.devRef .tc main_v8) = _
  generalize W1 m ρ c = V at e1 e7 ⊢
  after_results
  rw [toBuf_v8, ofBuf_toBuf, ofBuf_toBuf, ofBuf_v7, ofBuf_cst1]
  show maximumf (F := Ideal) (φ := .f32) (broadcastInDim (α := Ideal .f32) S100000 ![] bcast_S_S100000 (id (V (Proc.devRef .tc main_cst_1)))) (V (Proc.devRef .tc main_v7)) = _
  rw [e1, e7]
  rfl

/-! ## At the entry of the first dense region -/

theorem arg0_3 : W3 m ρ c (Proc.devRef .tc main_arg0) = (m ((c : Thread nD τ).loc main_arg0)) := by
  show StableHlo.after hostOps0_2 (W2 m ρ c) (Proc.devRef .tc main_arg0) = _
  after_results <;> rfl

theorem arg2_3 : W3 m ρ c (Proc.devRef .tc main_arg2) = (m ((c : Thread nD τ).loc main_arg2)) := by
  show StableHlo.after hostOps0_2 (W2 m ρ c) (Proc.devRef .tc main_arg2) = _
  after_results <;> rfl

theorem arg4_3 : W3 m ρ c (Proc.devRef .tc main_arg4) = (m ((c : Thread nD τ).loc main_arg4)) := by
  show StableHlo.after hostOps0_2 (W2 m ρ c) (Proc.devRef .tc main_arg4) = _
  after_results <;> rfl

theorem arg5_3 : W3 m ρ c (Proc.devRef .tc main_arg5) = (m ((c : Thread nD τ).loc main_arg5)) := by
  show StableHlo.after hostOps0_2 (W2 m ρ c) (Proc.devRef .tc main_arg5) = _
  after_results <;> rfl

/-- The bias row of layer 1: the bias vector as a one-row matrix. -/
theorem v11_3 : W3 m ρ c (Proc.devRef .tc main_v11) = shapeCast S1x64 (m ((c : Thread nD τ).loc main_arg3)) shapeCasts_S64_S1x64 := by
  show StableHlo.after hostOps0_2 (W2 m ρ c) (Proc.devRef .tc main_v11) = _
  after_results <;> rfl

/-- The edges' sources. -/
theorem v1_3 : W3 m ρ c (Proc.devRef .tc main_v1) = Cert.ReferenceIdeal.Read.val_main_v1 (F := Ideal) (m ((c : Thread nD τ).loc main_arg1)) := by
  show StableHlo.after hostOps0_2 (W2 m ρ c) (Proc.devRef .tc main_v1) = _
  after_results <;> rfl

/-- The edges' destinations. -/
theorem v3_3 : W3 m ρ c (Proc.devRef .tc main_v3) = Cert.ReferenceIdeal.Read.val_main_v3 (F := Ideal) (m ((c : Thread nD τ).loc main_arg1)) := by
  show StableHlo.after hostOps0_2 (W2 m ρ c) (Proc.devRef .tc main_v3) = _
  after_results <;> rfl

/-- The reciprocal of the clipped degree. -/
theorem v10_3 : W3 m ρ c (Proc.devRef .tc main_v10) = Cert.Stage.invDeg (m ((c : Thread nD τ).loc main_arg1)) := by
  have e8 := v8_2 m ρ c
  show StableHlo.after hostOps0_2 (W2 m ρ c) (Proc.devRef .tc main_v10) = _
  generalize W2 m ρ c = V at e8 ⊢
  after_results
  rw [e8]
  rfl

/-! ## At the exit of the first dense region -/

theorem v12_4 : W4 m ρ c (Proc.devRef .tc main_v12) = (dat0 (V3 m ρ) c).arrAt 3 cfg0.N := W4_arr m ρ c 3

theorem arg0_4 : W4 m ρ c (Proc.devRef .tc main_arg0) = (m ((c : Thread nD τ).loc main_arg0)) :=
  (W4_arr m ρ c 0).trans (((dat0 (V3 m ρ) c).arrAt_in 0 rfl _).trans ((A_eq0 (V3 m ρ) c 0).trans (arg0_3 m ρ c)))

theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)
theorem v1_4 : W4 m ρ c (Proc.devRef .tc main_v1) = Cert.ReferenceIdeal.Read.val_main_v1 (F := Ideal) (m ((c : Thread nD τ).loc main_arg1)) :=
  (W4_of_ne m ρ c main_v1 (by decide)).trans (v1_3 m ρ c)
theorem v3_4 : W4 m ρ c (Proc.devRef .tc main_v3) = Cert.ReferenceIdeal.Read.val_main_v3 (F := Ideal) (m ((c : Thread nD τ).loc main_arg1)) :=
  (W4_of_ne m ρ c main_v3 (by decide)).trans (v3_3 m ρ c)
theorem v10_4 : W4 m ρ c (Proc.devRef .tc main_v10) = Cert.Stage.invDeg (m ((c : Thread nD τ).loc main_arg1)) :=
  (W4_of_ne m ρ c main_v10 (by decide)).trans (v10_3 m ρ c)

/-! ## At the entry of the first edge-weight region -/

/-- The features of the edges' sources. -/
theorem v19_5 : W5 m ρ c (Proc.devRef .tc main_v19) = Cert.ReferenceIdeal.Read.val_main_v14 (F := Ideal) (m ((c : Thread nD τ).loc main_arg0)) (m ((c : Thread nD τ).loc main_arg1)) := by
  show StableHlo.after hostOps1 (W4 m ρ c) (Proc.devRef .tc main_v19) = _
  after_results
  rw [arg0_4, v1_4]
  rfl

set_option maxHeartbeats 4000000 in
/-- The features of the edges' destinations. -/
theorem v26_5 : W5 m ρ c (Proc.devRef .tc main_v26) = Cert.ReferenceIdeal.Read.val_main_v21 (F := Ideal) (m ((c : Thread nD τ).loc main_arg0)) (m ((c : Thread nD τ).loc main_arg1)) := by
  show StableHlo.after hostOps1 (W4 m ρ c) (Proc.devRef .tc main_v26) = _
  after_results
  rw [arg0_4, v3_4]
  rfl

theorem v12_5 : W5 m ρ c (Proc.devRef .tc main_v12) = (dat0 (V3 m ρ) c).arrAt 3 cfg0.N := by
  have h : W5 m ρ c (Proc.devRef .tc main_v12) = W4 m ρ c (Proc.devRef .tc main_v12) := by
    show StableHlo.after hostOps1 (W4 m ρ c) (Proc.devRef .tc main_v12) = _
    after_results
  exact h.trans (v12_4 m ρ c)
theorem arg4_5 : W5 m ρ c (Proc.devRef .tc main_arg4) = (m ((c : Thread nD τ).loc main_arg4)) := by
  show StableHlo.after hostOps1 (W4 m ρ c) (Proc.devRef .tc main_arg4) = _
  after_results <;> exact arg4_4 m ρ c
theorem arg5_5 : W5 m ρ c (Proc.devRef .tc main_arg5) = (m ((c : Thread nD τ).loc main_arg5)) := by
  show StableHlo.after hostOps1 (W4 m ρ c) (Proc.devRef .tc main_arg5) = _
  after_results <;> exact arg5_4 m ρ c
theorem v1_5 : W5 m ρ c (Proc.devRef .tc main_v1) = Cert.ReferenceIdeal.Read.val_main_v1 (F := Ideal) (m ((c : Thread nD τ).loc main_arg1)) := by
  show StableHlo.after hostOps1 (W4 m ρ c) (Proc.devRef .tc main_v1) = _
  after_results <;> exact v1_4 m ρ c
theorem v3_5 : W5 m ρ c (Proc.devRef .tc main_v3) = Cert.ReferenceIdeal.Read.val_main_v3 (F := Ideal) (m ((c : Thread nD τ).loc main_arg1)) := by
  show StableHlo.after hostOps1 (W4 m ρ c) (Proc.devRef .tc main_v3) = _
  after_results <;> exact v3_4 m ρ c
theorem v10_5 : W5 m ρ c (Proc.devRef .tc main_v10) = Cert.Stage.invDeg (m ((c : Thread nD τ).loc main_arg1)) := by
  show StableHlo.after hostOps1 (W4 m ρ c) (Proc.devRef .tc main_v10) = _
  after_results <;> exact v10_4 m ρ c

/-! ## At the exit of the first edge-weight region -/

theorem v27_6 : W6 m ρ c (Proc.devRef .tc main_v27) = (dat1 (V5 m ρ) c).arrAt 2 cfg1.N := W6_arr m ρ c 2

theorem v12_6 : W6 m ρ c (Proc.devRef .tc main_v12) = (dat0 (V3 m ρ) c).arrAt 3 cfg0.N :=
  (W6_of_ne m ρ c main_v12 (by decide)).trans (v12_5 m ρ c)
theorem arg4_6 : W6 m ρ c (Proc.devRef .tc main_arg4) = (m ((c : Thread nD τ).loc main_arg4)) := (W6_of_ne m ρ c main_arg4 (by decide)).trans (arg4_5 m ρ c)
theorem arg5_6 : W6 m ρ c (Proc.devRef .tc main_arg5) = (m ((c : Thread nD τ).loc main_arg5)) := (W6_of_ne m ρ c main_arg5 (by decide)).trans (arg5_5 m ρ c)
theorem v1_6 : W6 m ρ c (Proc.devRef .tc main_v1) = Cert.ReferenceIdeal.Read.val_main_v1 (F := Ideal) (m ((c : Thread nD τ).loc main_arg1)) :=
  (W6_of_ne m ρ c main_v1 (by decide)).trans (v1_5 m ρ c)
theorem v3_6 : W6 m ρ c (Proc.devRef .tc main_v3) = Cert.ReferenceIdeal.Read.val_main_v3 (F := Ideal) (m ((c : Thread nD τ).loc main_arg1)) :=
  (W6_of_ne m ρ c main_v3 (by decide)).trans (v3_5 m ρ c)
theorem v10_6 : W6 m ρ c (Proc.devRef .tc main_v10) = Cert.Stage.invDeg (m ((c : Thread nD τ).loc main_arg1)) :=
  (W6_of_ne m ρ c main_v10 (by decide)).trans (v10_5 m ρ c)

end Cert.KernelIdeal.Value

end
-- ==== Proof.KernelValueB.lean ====
/-
  The device's buffers at the boundaries between the program's segments, from the entry of the second dense
  region to the return.

  The hidden features are layer 1's stages of the two first regions' output arrays; the second dense region reads
  them, the weight matrix and the bias row of layer 2; the second edge-weight region reads the hidden features
  gathered at the edges' sources and destinations; the result is layer 2's stages of the two second regions'
  output arrays.
-/
import proofs.«144737_j16149077033547_2_alg».proof.Proof.KernelValueA

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The hidden features: layer 1's stages of the first two regions' output arrays. -/
abbrev hid : FVec Ideal Cert.ReferenceIdeal.S100000x64 .f32 :=
  Cert.Stage.hidden ((dat0 (V3 m ρ) c).arrAt 3 cfg0.N) ((dat1 (V5 m ρ) c).arrAt 2 cfg1.N) (m ((c : Thread nD τ).loc main_arg1))

/-! ## At the entry of the second dense region -/

set_option maxHeartbeats 4000000 in
/-- Layer 1 before its maximum against zero. -/
theorem v42_7 : W7 m ρ c (Proc.devRef .tc main_v42)
    = Cert.Stage.out1 (W6 m ρ c (Proc.devRef .tc main_v12)) (W6 m ρ c (Proc.devRef .tc main_v27)) (m ((c : Thread nD τ).loc main_arg1)) := by
  show StableHlo.after hostOps2 (W6 m ρ c) (Proc.devRef .tc main_v42) = _
  after_results
  rw [v1_6, v3_6, v10_6]
  rfl

/-- The maximum against zero. -/
theorem v43_8 : W8 m ρ c (Proc.devRef .tc main_v43)
    = maximumf (F := Ideal) (φ := .f32) (W7 m ρ c (Proc.devRef .tc main_v42)) (Cert.ReferenceIdeal.Read.val_main_call2_v0 (F := Ideal)) := by
  show StableHlo.after hostOps2_1 (W7 m ρ c) (Proc.devRef .tc main_v43) = _
  generalize W7 m ρ c = V
  after_results
  rw [toBuf_v43, ofBuf_v42, ofBuf_toBuf, ofBuf_toBuf]
  rfl

theorem v43_9 : W9 m ρ c (Proc.devRef .tc main_v43) = hid m ρ c := by
  have h : W9 m ρ c (Proc.devRef .tc main_v43) = W8 m ρ c (Proc.devRef .tc main_v43) := by
    show StableHlo.after hostOps2_2 (W8 m ρ c) (Proc.devRef .tc main_v43) = _
    generalize W8 m ρ c = V
    after_results
  rw [h, v43_8, v42_7, v12_6, v27_6]
  rfl

/-- The bias row of layer 2. -/
theorem v44_9 : W9 m ρ c (Proc.devRef .tc main_v44) = shapeCast S1x32 (m ((c : Thread nD τ).loc main_arg5)) shapeCasts_S32_S1x32 := by
  show StableHlo.after hostOps2_2 (W8 m ρ c) (Proc.devRef .tc main_v44) = _
  after_results
  rw [arg5_6]
  rfl

theorem arg4_9 : W9 m ρ c (Proc.devRef .tc main_arg4) = (m ((c : Thread nD τ).loc main_arg4)) := by
  show StableHlo.after hostOps2_2 (W8 m ρ c) (Proc.devRef .tc main_arg4) = _
  after_results <;> exact arg4_6 m ρ c
theorem v1_9 : W9 m ρ c (Proc.devRef .tc main_v1) = Cert.ReferenceIdeal.Read.val_main_v1 (F := Ideal) (m ((c : Thread nD τ).loc main_arg1)) := by
  show StableHlo.after hostOps2_2 (W8 m ρ c) (Proc.devRef .tc main_v1) = _
  after_results <;> exact v1_6 m ρ c
theorem v3_9 : W9 m ρ c (Proc.devRef .tc main_v3) = Cert.ReferenceIdeal.Read.val_main_v3 (F := Ideal) (m ((c : Thread nD τ).loc main_arg1)) := by
  show StableHlo.after hostOps2_2 (W8 m ρ c) (Proc.devRef .tc main_v3) = _
  after_results <;> exact v3_6 m ρ c
theorem v10_9 : W9 m ρ c (Proc.devRef .tc main_v10) = Cert.Stage.invDeg (m ((c : Thread nD τ).loc main_arg1)) := by
  show StableHlo.after hostOps2_2 (W8 m ρ c) (Proc.devRef .tc main_v10) = _
  after_results <;> exact v10_6 m ρ c

/-! ## At the exit of the second dense region -/

theorem v45_10 : W10 m ρ c (Proc.devRef .tc main_v45) = (dat2 (V9 m ρ) c).arrAt 3 cfg2.N := W10_arr m ρ c 3

theorem v43_10 : W10 m ρ c (Proc.devRef .tc main_v43) = hid m ρ c :=
  (W10_arr m ρ c 0).trans (((dat2 (V9 m ρ) c).arrAt_in 0 rfl _).trans ((A_eq2 (V9 m ρ) c 0).trans (v43_9 m ρ c)))

theorem v1_10 : W10 m ρ c (Proc.devRef .tc main_v1) = Cert.ReferenceIdeal.Read.val_main_v1 (F := Ideal) (m ((c : Thread nD τ).loc main_arg1)) :=
  (W10_of_ne m ρ c main_v1 (by decide)).trans (v1_9 m ρ c)
theorem v3_10 : W10 m ρ c (Proc.devRef .tc main_v3) = Cert.ReferenceIdeal.Read.val_main_v3 (F := Ideal) (m ((c : Thread nD τ).loc main_arg1)) :=
  (W10_of_ne m ρ c main_v3 (by decide)).trans (v3_9 m ρ c)
theorem v10_10 : W10 m ρ c (Proc.devRef .tc main_v10) = Cert.Stage.invDeg (m ((c : Thread nD τ).loc main_arg1)) :=
  (W10_of_ne m ρ c main_v10 (by decide)).trans (v10_9 m ρ c)

/-! ## At the entry of the second edge-weight region -/

set_option maxHeartbeats 4000000 in
/-- The hidden features of the edges' sources. -/
theorem v52_11 : W11 m ρ c (Proc.devRef .tc main_v52)
    = Host.gather (α := Ideal .f32) Cert.ReferenceIdeal.gather_S100000x64_S1600000x1_S1600000x64_1_0_n_n_0_1_164 (hid m ρ c)
        (Cert.ReferenceIdeal.Read.val_main_v72 (F := Ideal) (m ((c : Thread nD τ).loc main_arg1))) := by
  have h : W11 m ρ c (Proc.devRef .tc main_v52)
      = Host.gather (α := Ideal .f32) Cert.ReferenceIdeal.gather_S100000x64_S1600000x1_S1600000x64_1_0_n_n_0_1_164 (W10 m ρ c (Proc.devRef .tc main_v43))
        (Cert.ReferenceIdeal.Read.val_main_v72 (F := Ideal) (m ((c : Thread nD τ).loc main_arg1))) := by
    show StableHlo.after hostOps3 (W10 m ρ c) (Proc.devRef .tc main_v52) = _
    after_results
    rw [v1_10]
    rfl
  rw [h, v43_10]

set_option maxHeartbeats 4000000 in
/-- The hidden features of the edges' destinations. -/
theorem v59_11 : W11 m ρ c (Proc.devRef .tc main_v59)
    = Host.gather (α := Ideal .f32) Cert.ReferenceIdeal.gather_S100000x64_S1600000x1_S1600000x64_1_0_n_n_0_1_164 (hid m ρ c)
        (Cert.ReferenceIdeal.Read.val_main_v79 (F := Ideal) (m ((c : Thread nD τ).loc main_arg1))) := by
  have h : W11 m ρ c (Proc.devRef .tc main_v59)
      = Host.gather (α := Ideal .f32) Cert.ReferenceIdeal.gather_S100000x64_S1600000x1_S1600000x64_1_0_n_n_0_1_164 (W10 m ρ c (Proc.devRef .tc main_v43))
        (Cert.ReferenceIdeal.Read.val_main_v79 (F := Ideal) (m ((c : Thread nD τ).loc main_arg1))) := by
    show StableHlo.after hostOps3 (W10 m ρ c) (Proc.devRef .tc main_v59) = _
    after_results
    rw [v3_10]
    rfl
  rw [h, v43_10]

theorem v45_11 : W11 m ρ c (Proc.devRef .tc main_v45) = (dat2 (V9 m ρ) c).arrAt 3 cfg2.N := by
  have h : W11 m ρ c (Proc.devRef .tc main_v45) = W10 m ρ c (Proc.devRef .tc main_v45) := by
    show StableHlo.after hostOps3 (W10 m ρ c) (Proc.devRef .tc main_v45) = _
    after_results
  exact h.trans (v45_10 m ρ c)
theorem v1_11 : W11 m ρ c (Proc.devRef .tc main_v1) = Cert.ReferenceIdeal.Read.val_main_v1 (F := Ideal) (m ((c : Thread nD τ).loc main_arg1)) := by
  show StableHlo.after hostOps3 (W10 m ρ c) (Proc.devRef .tc main_v1) = _
  after_results <;> exact v1_10 m ρ c
theorem v3_11 : W11 m ρ c (Proc.devRef .tc main_v3) = Cert.ReferenceIdeal.Read.val_main_v3 (F := Ideal) (m ((c : Thread nD τ).loc main_arg1)) := by
  show StableHlo.after hostOps3 (W10 m ρ c) (Proc.devRef .tc main_v3) = _
  after_results <;> exact v3_10 m ρ c
theorem v10_11 : W11 m ρ c (Proc.devRef .tc main_v10) = Cert.Stage.invDeg (m ((c : Thread nD τ).loc main_arg1)) := by
  show StableHlo.after hostOps3 (W10 m ρ c) (Proc.devRef .tc main_v10) = _
  after_results <;> exact v10_10 m ρ c

/-! ## At the exit of the second edge-weight region -/

theorem v60_12 : W12 m ρ c (Proc.devRef .tc main_v60) = (dat3 (V11 m ρ) c).arrAt 2 cfg3.N := W12_arr m ρ c 2

theorem v45_12 : W12 m ρ c (Proc.devRef .tc main_v45) = (dat2 (V9 m ρ) c).arrAt 3 cfg2.N :=
  (W12_of_ne m ρ c main_v45 (by decide)).trans (v45_11 m ρ c)
theorem v1_12 : W12 m ρ c (Proc.devRef .tc main_v1) = Cert.ReferenceIdeal.Read.val_main_v1 (F := Ideal) (m ((c : Thread nD τ).loc main_arg1)) :=
  (W12_of_ne m ρ c main_v1 (by decide)).trans (v1_11 m ρ c)
theorem v3_12 : W12 m ρ c (Proc.devRef .tc main_v3) = Cert.ReferenceIdeal.Read.val_main_v3 (F := Ideal) (m ((c : Thread nD τ).loc main_arg1)) :=
  (W12_of_ne m ρ c main_v3 (by decide)).trans (v3_11 m ρ c)
theorem v10_12 : W12 m ρ c (Proc.devRef .tc main_v10) = Cert.Stage.invDeg (m ((c : Thread nD τ).loc main_arg1)) :=
  (W12_of_ne m ρ c main_v10 (by decide)).trans (v10_11 m ρ c)

/-! ## At the return -/

set_option maxHeartbeats 4000000 in
/-- The result: layer 2's stages of the two second regions' output arrays. -/
theorem v75_13 : W13 m ρ c (Proc.devRef .tc main_v75)
    = Cert.Stage.out2 ((dat2 (V9 m ρ) c).arrAt 3 cfg2.N) ((dat3 (V11 m ρ) c).arrAt 2 cfg3.N) (m ((c : Thread nD τ).loc main_arg1)) := by
  have h : W13 m ρ c (Proc.devRef .tc main_v75)
      = Cert.Stage.out2 (W12 m ρ c (Proc.devRef .tc main_v45)) (W12 m ρ c (Proc.devRef .tc main_v60)) (m ((c : Thread nD τ).loc main_arg1)) := by
    show StableHlo.after hostOps4 (W12 m ρ c) (Proc.devRef .tc main_v75) = _
    after_results
    rw [v1_12, v3_12, v10_12]
    rfl
  rw [h, v45_12, v60_12]

end Cert.KernelIdeal.Value

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.DenseArray.lean ====
/-
  The dense-layer kernel, from blocks to the whole array.

  The kernel's grid has ten points. Point t loads rows [10000 t, 10000 (t + 1)) of the [100000, K] feature array,
  the whole [K, B] weight matrix and the whole [1, B] bias row, and stores into the same rows of the [100000, B]
  output the product of the feature block with the weights plus the bias row broadcast over the rows. At the ideal
  values the roundings to bf16 on the way into the product are the identity, and the product into the zero
  accumulator at (p, q) is the sum over k of left (p, k) · right (k, q). So what point t writes back is block t of
  the dense layer of the three arrays as the region finds them; the ten blocks cover every row (row r lies in the
  block of point r / 10000), hence the output array after the region is the dense layer at every index.

  This is proved twice: for the first layer (K = 64, B = 64) and for the second (K = 64, B = 32).
-/
import proofs.«144737_j16149077033547_2_alg».proof.Proof.Gen.KernelIdeal.Frame
import proofs.«144737_j16149077033547_2_alg».proof.Proof.Spec
import proofs.«144737_j16149077033547_2_alg».proof.Proof.LibMatmul2
import Idealize.ShloMosaic.Lib.Pipeline.Value
import Idealize.ShloMosaic.Lib.ValueLayout
import Idealize.ShloMosaic.PureOps.Ideal.Laws

set_option maxRecDepth 16384

noncomputable section

namespace Cert.KernelIdeal.DenseArray

open Cert.KernelIdeal Cert.KernelIdeal.Gen Idealize.ShloMosaic Idealize.ShloMosaic.TcCoe Idealize.ShloMosaic.ValueIdx Idealize.SL.Sem
open Idealize.ShloMosaic.Pipeline (Dat)

/-! ## The dense layer of region 0: features [100000, 64], weights [64, 64], bias row [1, 64] -/

/-- The zero offsets of a whole-buffer access, as a constant function. -/
theorem zeros2 : (![0, 0] : Fin 2 → Nat) = fun _ => 0 := funext fun a => by fin_cases a <;> rfl

/-- The body's stored value at row p, column q of its block: the product of the feature block with the weights
    into the zero accumulator (the roundings to bf16 are the identity on the extended reals) plus the bias row
    broadcast over the rows, that is, the sum over k of x0 (p, k) · x1 (k, q), plus x2 (0, q). -/
theorem payload0 (x0 : Vec Ideal S10000x64 .f32) (x1 : Vec Ideal S64x64 .f32) (x2 : Vec Ideal S1x64 .f32)
    (p : Fin 10000) (q : Fin 64) :
    k0_pay1 (F := Ideal) x0 x1 x2 (ix2 p q) = (∑ k : Fin 64, x0 (ix2 p k) * x1 (ix2 k q)) + x2 (ix2 (0 : Fin 1) q) := by
  unfold k0_pay1
  refine (addf_apply _ _ (ix2 p q)).trans ?_
  refine congrArg₂ (· + ·) ?_ ?_
  · exact Cert.Lib.matmul2_zero_apply dot_S10000x64_S64x64_S10000x64_1_0_0_1_n_n_wf
      (truncf .bf16 x0 bitsLt_bf16_f32) (truncf .bf16 x1 bitsLt_bf16_f32) p q
  · refine (broadcastTo_1b_ab_apply _ broadcasts_S1x64_S10000x64 p q).trans ?_
    rw [shapeCast_self]

/-- A block of the dense layer. Let the feature block x0 be the rows of the array A0 under an embedding e that
    shifts the row by T · 10000 and keeps the column, and let the weight and bias blocks be the whole arrays A1, A2.
    Then the body's stored value at y is the dense layer of the three arrays at e y: both are the sum over k of
    A0 (T · 10000 + y 0, k) · A1 (k, y 1), plus A2 (0, y 1). -/
theorem dense_block0 (A0 : S100000x64.Idx → EReal) (A1 : S64x64.Idx → EReal) (A2 : S1x64.Idx → EReal)
    (x0 : Vec Ideal S10000x64 .f32) (x1 : Vec Ideal S64x64 .f32) (x2 : Vec Ideal S1x64 .f32)
    (e : S10000x64.Idx → S100000x64.Idx) (T : ℕ)
    (he0 : ∀ y, ((e y) 0).val = T * 10000 + (y 0).val) (he1 : ∀ y, ((e y) 1).val = (y 1).val)
    (h0 : ∀ y, x0 y = A0 (e y)) (h1 : ∀ y, x1 y = A1 y) (h2 : ∀ y, x2 y = A2 y) (y : S10000x64.Idx) :
    k0_pay1 (F := Ideal) x0 x1 x2 y = Cert.Spec.dense A0 A1 A2 (e y) := by
  obtain ⟨p, q, rfl⟩ : ∃ (p : Fin 10000) (q : Fin 64), y = ix2 p q := ⟨y 0, y 1, eq_ix2 y⟩
  refine (payload0 x0 x1 x2 p q).trans ?_
  have hq : (e (ix2 p q)) 1 = q := Fin.ext (he1 (ix2 p q))
  have hrow : ∀ k : Fin 64, e (ix2 p k) = ix2 ((e (ix2 p q)) 0) k := fun k => by
    funext a; apply Fin.ext
    match a with
    | ⟨0, _⟩ => exact (he0 (ix2 p k)).trans (he0 (ix2 p q)).symm
    | ⟨1, _⟩ => exact he1 (ix2 p k)
  show _ = (∑ k : Fin 64, A0 (ix2 ((e (ix2 p q)) 0) k) * A1 (ix2 k ((e (ix2 p q)) 1))) + A2 (ix2 (0 : Fin 1) ((e (ix2 p q)) 1))
  rw [hq, h2]
  refine congrArg₂ (· + ·) (Finset.sum_congr rfl fun k _ => ?_) rfl
  exact congrArg₂ (· * ·) ((h0 (ix2 p k)).trans (congrArg A0 (hrow k))) (h1 (ix2 k q))

variable (V : (c : Dev nD) → (b : Ref sig .tc) → Buf (Elt Ideal) ((c : Thread nD τ).loc b))

/-- The printed index maps, decided over the ten grid points: the feature window and the output window have the
    same block index, which is the point's number on the row axis and 0 on the column axis; the weight and bias
    windows stay at block (0, 0). -/
theorem index_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the three arrays as the region finds them. -/
theorem flushed0_eq (c : Dev nD) (t : Fin cfg0.N) :
    (dat0 (F := Ideal) V c).flushed 3 t = ((cfg0.win 3).blk t).view.read (Elt Ideal)
      (Cert.Spec.dense (V c main_arg0) (V c main_arg2) (V c main_v11)) := by
  show (cfg0.win 3).cut (grid0.coords t) ((dat0 (F := Ideal) V c).after 3 t) = _
  rw [after0_3]
  unfold out0_3
  rw [View.canon_unit_zero zeros2]
  simp only [View.ld_unit_zero (S := S10000x64) zeros2, View.ld_unit_zero (S := S64x64) zeros2,
    View.ld_unit_zero (S := S1x64) zeros2]
  obtain ⟨f00, f01, f10, f11, f20, f21, f30, f31⟩ := index_facts0 t
  funext j
  show k0_pay1 (F := Ideal) (iblk0 V c 0 t) (iblk0 V c 1 t) (iblk0 V c 2 t) j
    = Cert.Spec.dense (V c main_arg0) (V c main_arg2) (V c main_v11) (((cfg0.win 3).blk t).view.emb j)
  refine dense_block0 (V c main_arg0) (V c main_arg2) (V c main_v11) (iblk0 V c 0 t) (iblk0 V c 1 t) (iblk0 V c 2 t)
    (((cfg0.win 3).blk t).view.emb) (win0_3.index t (0 : Fin 2)) ?_ ?_ ?_ ?_ ?_ j
  · intro y
    show win0_3.index t (0 : Fin 2) * 10000 + 1 * (y 0).val = win0_3.index t (0 : Fin 2) * 10000 + (y 0).val
    omega
  · intro y
    show win0_3.index t (1 : Fin 2) * 64 + 1 * (y 1).val = (y 1).val
    omega
  · intro y
    show V c main_arg0 (((cfg0.win 0).blk t).view.emb y) = V c main_arg0 (((cfg0.win 3).blk t).view.emb y)
    refine congrArg _ ?_
    funext a; apply Fin.ext
    match a with
    | ⟨0, _⟩ => show win0_0.index t (0 : Fin 2) * 10000 + 1 * (y 0).val = win0_3.index t (0 : Fin 2) * 10000 + 1 * (y 0).val; omega
    | ⟨1, _⟩ => show win0_0.index t (1 : Fin 2) * 64 + 1 * (y 1).val = win0_3.index t (1 : Fin 2) * 64 + 1 * (y 1).val; omega
  · intro y
    show V c main_arg2 (((cfg0.win 1).blk t).view.emb y) = V c main_arg2 y
    refine congrArg _ ?_
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  · intro y
    show V c main_v11 (((cfg0.win 2).blk t).view.emb y) = V c main_v11 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega

/-- An index of the output array is in point t's block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v12).slice (win0_3.rect t)).set ↔ _
  rw [View.set_slice_whole, Rect.mem_set_unit]
  exact Iff.rfl

/-- Every index of the output array is in some point's block: row r is in the block of point r / 10000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨f00, f01, f10, f11, f20, f21, f30, f31⟩ := index_facts0 t
  have ht : t.val = (i 0).val / 10000 := rfl
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after region 0 is the dense layer of the three input arrays as the region finds them. -/
theorem final0 (c : Dev nD) : (dat0 (F := Ideal) V c).arrAt 3 cfg0.N = Cert.Spec.dense (V c main_arg0) (V c main_arg2) (V c main_v11) :=
  (dat0 (F := Ideal) V c).arrAt_eq_of_cover 3 (Cert.Spec.dense (V c main_arg0) (V c main_arg2) (V c main_v11))
    (fun t _ => flushed0_eq V c t) cover0

/-! ## The dense layer of region 2: features [100000, 64], weights [64, 32], bias row [1, 32] -/

/-- The body's stored value at row p, column q of its block: as for the first layer (the feature block first passes
    through a reshape to its own shape, which is the identity), the sum over k of x0 (p, k) · x1 (k, q), plus x2 (0, q). -/
theorem payload2 (x0 : Vec Ideal S10000x64 .f32) (x1 : Vec Ideal S64x32 .f32) (x2 : Vec Ideal S1x32 .f32)
    (p : Fin 10000) (q : Fin 32) :
    k2_pay1 (F := Ideal) x0 x1 x2 (ix2 p q) = (∑ k : Fin 64, x0 (ix2 p k) * x1 (ix2 k q)) + x2 (ix2 (0 : Fin 1) q) := by
  have hs : shapeCast S10000x64 x0 shapeCasts_S10000x64_S10000x64 = x0 := shapeCast_self x0 _
  unfold k2_pay1
  refine (addf_apply _ _ (ix2 p q)).trans ?_
  refine congrArg₂ (· + ·) ?_ ?_
  · refine (Cert.Lib.matmul2_zero_apply dot_S10000x64_S64x32_S10000x32_1_0_0_1_n_n_wf
      (truncf .bf16 (shapeCast S10000x64 x0 shapeCasts_S10000x64_S10000x64) bitsLt_bf16_f32)
      (truncf .bf16 x1 bitsLt_bf16_f32) p q).trans ?_
    exact Finset.sum_congr rfl fun k _ => congrArg₂ (· * ·) (congrFun hs (ix2 p k)) rfl
  · refine (broadcastTo_1b_ab_apply _ broadcasts_S1x32_S10000x32 p q).trans ?_
    rw [shapeCast_self]

/-- A block of the dense layer. Let the feature block x0 be the rows of the array A0 under an embedding e0, and let
    e3 embed the output block in the output array, both shifting the row by T · 10000 and keeping the column; let the
    weight and bias blocks be the whole arrays A1, A2. Then the body's stored value at y is the dense layer of the
    three arrays at e3 y: both are the sum over k of A0 (T · 10000 + y 0, k) · A1 (k, y 1), plus A2 (0, y 1). -/
theorem dense_block2 (A0 : S100000x64.Idx → EReal) (A1 : S64x32.Idx → EReal) (A2 : S1x32.Idx → EReal)
    (x0 : Vec Ideal S10000x64 .f32) (x1 : Vec Ideal S64x32 .f32) (x2 : Vec Ideal S1x32 .f32)
    (e0 : S10000x64.Idx → S100000x64.Idx) (e3 : S10000x32.Idx → S100000x32.Idx) (T : ℕ)
    (hr0 : ∀ y, ((e0 y) 0).val = T * 10000 + (y 0).val) (hc0 : ∀ y, ((e0 y) 1).val = (y 1).val)
    (hr3 : ∀ y, ((e3 y) 0).val = T * 10000 + (y 0).val) (hc3 : ∀ y, ((e3 y) 1).val = (y 1).val)
    (h0 : ∀ y, x0 y = A0 (e0 y)) (h1 : ∀ y, x1 y = A1 y) (h2 : ∀ y, x2 y = A2 y) (y : S10000x32.Idx) :
    k2_pay1 (F := Ideal) x0 x1 x2 y = Cert.Spec.dense A0 A1 A2 (e3 y) := by
  obtain ⟨p, q, rfl⟩ : ∃ (p : Fin 10000) (q : Fin 32), y = ix2 p q := ⟨y 0, y 1, eq_ix2 y⟩
  refine (payload2 x0 x1 x2 p q).trans ?_
  have hq : (e3 (ix2 p q)) 1 = q := Fin.ext (hc3 (ix2 p q))
  have hrow : ∀ k : Fin 64, e0 (ix2 p k) = ix2 ((e3 (ix2 p q)) 0) k := fun k => by
    funext a; apply Fin.ext
    match a with
    | ⟨0, _⟩ => exact (hr0 (ix2 p k)).trans (hr3 (ix2 p q)).symm
    | ⟨1, _⟩ => exact hc0 (ix2 p k)
  show _ = (∑ k : Fin 64, A0 (ix2 ((e3 (ix2 p q)) 0) k) * A1 (ix2 k ((e3 (ix2 p q)) 1))) + A2 (ix2 (0 : Fin 1) ((e3 (ix2 p q)) 1))
  rw [hq, h2]
  refine congrArg₂ (· + ·) (Finset.sum_congr rfl fun k _ => ?_) rfl
  exact congrArg₂ (· * ·) ((h0 (ix2 p k)).trans (congrArg A0 (hrow k))) (h1 (ix2 k q))

/-- The printed index maps, decided over the ten grid points: the feature window and the output window have the
    same block index, which is the point's number on the row axis and 0 on the column axis; the weight and bias
    windows stay at block (0, 0). -/
theorem index_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the dense layer of the three arrays as the region finds them. -/
theorem flushed2_eq (c : Dev nD) (t : Fin cfg2.N) :
    (dat2 (F := Ideal) V c).flushed 3 t = ((cfg2.win 3).blk t).view.read (Elt Ideal)
      (Cert.Spec.dense (V c main_v43) (V c main_arg4) (V c main_v44)) := by
  show (cfg2.win 3).cut (grid2.coords t) ((dat2 (F := Ideal) V c).after 3 t) = _
  rw [after2_3]
  unfold out2_3
  rw [View.canon_unit_zero zeros2]
  simp only [View.ld_unit_zero (S := S10000x64) zeros2, View.ld_unit_zero (S := S64x32) zeros2,
    View.ld_unit_zero (S := S1x32) zeros2]
  obtain ⟨f00, f01, f10, f11, f20, f21, f30, f31⟩ := index_facts2 t
  funext j
  show k2_pay1 (F := Ideal) (iblk2 V c 0 t) (iblk2 V c 1 t) (iblk2 V c 2 t) j
    = Cert.Spec.dense (V c main_v43) (V c main_arg4) (V c main_v44) (((cfg2.win 3).blk t).view.emb j)
  refine dense_block2 (V c main_v43) (V c main_arg4) (V c main_v44) (iblk2 V c 0 t) (iblk2 V c 1 t) (iblk2 V c 2 t)
    (((cfg2.win 0).blk t).view.emb) (((cfg2.win 3).blk t).view.emb) (win2_3.index t (0 : Fin 2)) ?_ ?_ ?_ ?_ ?_ ?_ ?_ j
  · intro y
    show win2_0.index t (0 : Fin 2) * 10000 + 1 * (y 0).val = win2_3.index t (0 : Fin 2) * 10000 + (y 0).val
    omega
  · intro y
    show win2_0.index t (1 : Fin 2) * 64 + 1 * (y 1).val = (y 1).val
    omega
  · intro y
    show win2_3.index t (0 : Fin 2) * 10000 + 1 * (y 0).val = win2_3.index t (0 : Fin 2) * 10000 + (y 0).val
    omega
  · intro y
    show win2_3.index t (1 : Fin 2) * 32 + 1 * (y 1).val = (y 1).val
    omega
  · intro y
    rfl
  · intro y
    show V c main_arg4 (((cfg2.win 1).blk t).view.emb y) = V c main_arg4 y
    refine congrArg _ ?_
    funext a; apply Fin.ext
    match a with
    | ⟨0, _⟩ => show win2_1.index t (0 : Fin 2) * 64 + 1 * (y 0).val = (y 0).val; omega
    | ⟨1, _⟩ => show win2_1.index t (1 : Fin 2) * 32 + 1 * (y 1).val = (y 1).val; omega
  · intro y
    show V c main_v44 (((cfg2.win 2).blk t).view.emb y) = V c main_v44 y
    refine congrArg _ ?_
    funext a; apply Fin.ext
    match a with
    | ⟨0, _⟩ => show win2_2.index t (0 : Fin 2) * 1 + 1 * (y 0).val = (y 0).val; omega
    | ⟨1, _⟩ => show win2_2.index t (1 : Fin 2) * 32 + 1 * (y 1).val = (y 1).val; omega

/-- An index of the output array is in point t's block iff each coordinate is in the block's range on its axis. -/
theorem mem_block2 (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v45).slice (win2_3.rect t)).set ↔ _
  rw [View.set_slice_whole, Rect.mem_set_unit]
  exact Iff.rfl

/-- Every index of the output array is in some point's block: row r is in the block of point r / 10000. -/
theorem cover2 (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; omega⟩
  obtain ⟨f00, f01, f10, f11, f20, f21, f30, f31⟩ := index_facts2 t
  have ht : t.val = (i 0).val / 10000 := rfl
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 32 ≤ (i 1).val ∧ (i 1).val < win2_3.index t (1 : Fin 2) * 32 + 32; omega

/-- The output array after region 2 is the dense layer of the three input arrays as the region finds them. -/
theorem final2 (c : Dev nD) : (dat2 (F := Ideal) V c).arrAt 3 cfg2.N = Cert.Spec.dense (V c main_v43) (V c main_arg4) (V c main_v44) :=
  (dat2 (F := Ideal) V c).arrAt_eq_of_cover 3 (Cert.Spec.dense (V c main_v43) (V c main_arg4) (V c main_v44))
    (fun t _ => flushed2_eq V c t) cover2

end Cert.KernelIdeal.DenseArray

end
-- ==== Proof.LibColumnCast.lean ====
/- A general layout fact: a vector stood up as a one-column matrix, read at an index. -/
import Idealize.ShloMosaic.Lib.Pipeline.Value
import Idealize.ShloMosaic.Lib.ValueIdx

namespace Cert.Lib

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib
-- ==== Proof.WeightArray.lean ====
/-
  The edge-weight column after each of the two edge-weight regions, as one function of the two gathered
  endpoint-feature arrays the region finds.

  The region's grid has 100 points. Point t loads rows [16000 t, 16000 (t + 1)) of the two [1600000, 64] arrays and
  writes the same rows of the [1600000, 1] column: at row e the weight √(1 − (tanh n · c)² + ε) of the norm
  n = √(∑ₖ (fs (e, k) − fd (e, k))²). The blocks of the 100 points are the 100 consecutive stretches of 16000 rows,
  so together they are the whole column, and row e lies in the block of point e / 16000. Hence the column after
  the region is the weight column of the two arrays at every index.
-/
import proofs.«144737_j16149077033547_2_alg».proof.Proof.Gen.KernelIdeal.Frame
import proofs.«144737_j16149077033547_2_alg».proof.Proof.Spec
import proofs.«144737_j16149077033547_2_alg».proof.Proof.LibColumnCast
import Idealize.ShloMosaic.Lib.Pipeline.Value
import Idealize.ShloMosaic.Lib.ValueLayout
import Idealize.ShloMosaic.PureOps.Ideal.Laws

set_option maxRecDepth 16384

noncomputable section

namespace Cert.KernelIdeal.WeightArray

open Cert.KernelIdeal Cert.KernelIdeal.Gen Idealize.ShloMosaic Idealize.ShloMosaic.TcCoe Idealize.ShloMosaic.ValueIdx Idealize.SL.Sem
open Idealize.ShloMosaic.Pipeline (Dat)

/-! ## The payload at an index -/

/-- The sum over the last axis of a [16000, 64] array, read at row `r`: the sum over `k : Fin 64` of the entries
    (r, k). -/
theorem laneSum_apply (src : FVec Ideal S16000x64 .f32) (h : S16000x64.Reduces [1] S16000) (hφ : FKind.Formats .f32)
    (hacc : (0x00000000#32 : BitVec 32) = 0x00000000#32) (r : Fin 16000) :
    multiReduction (F := Ideal) .add [1] S16000 src 0x00000000#32 h hφ hacc (ix1 r) = ∑ k : Fin 64, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-- The edge-weight payload at (r, u): the weight of the norm of the difference of the two loaded rows `r`. -/
theorem weightPay1_apply (x0 x1 : Vec Ideal S16000x64 .f32) (r : Fin 16000) (u : Fin 1) :
    k1_pay1 (F := Ideal) x0 x1 (ix2 r u)
      = Cert.Dilation.weightOf (Ideal.sqrt (∑ k : Fin 64, (x0 (ix2 r k) - x1 (ix2 r k)) * (x0 (ix2 r k) - x1 (ix2 r k)))) := by
  unfold k1_pay1
  show Cert.Dilation.weightOf (Ideal.sqrt (shapeCast S16000x1 (multiReduction (F := Ideal) .add [1] S16000
      (mulf (subf (shapeCast S16000x64 x0 shapeCasts_S16000x64_S16000x64) (shapeCast S16000x64 x1 shapeCasts_S16000x64_S16000x64))
        (subf (shapeCast S16000x64 x0 shapeCasts_S16000x64_S16000x64) (shapeCast S16000x64 x1 shapeCasts_S16000x64_S16000x64)))
      0x00000000#32 reduces_S16000x64_S16000 (.inl rfl) rfl) shapeCasts_S16000_S16000x1 (ix2 r u))) = _
  rw [Cert.Lib.shapeCast_a_a1_apply, laneSum_apply, shapeCast_self, shapeCast_self]
  rfl

/-- The edge-weight payload of the second layer is the same term. -/
theorem weightPay3_eq (x0 x1 : Vec Ideal S16000x64 .f32) : k3_pay1 (F := Ideal) x0 x1 = k1_pay1 (F := Ideal) x0 x1 := rfl

/-! ## From blocks to the array -/

/-- The zero offsets of a whole-buffer access. -/
theorem zeroOffsets : (![0, 0] : Fin 2 → Nat) = fun _ => 0 := funext fun a => by fin_cases a <;> rfl

/-- The payload of two blocks whose rows `r` are the rows `e` of two arrays is, at (r, ·), the weight column of the
    arrays at (e, ·). -/
theorem weightPay1_eq_weightCol_ix (fs fd : S1600000x64.Idx → EReal) (x0 x1 : Vec Ideal S16000x64 .f32)
    (r : Fin 16000) (u : Fin 1) (e : Fin 1600000) (u' : Fin 1)
    (h0 : ∀ k : Fin 64, x0 (ix2 r k) = fs (ix2 e k)) (h1 : ∀ k : Fin 64, x1 (ix2 r k) = fd (ix2 e k)) :
    k1_pay1 (F := Ideal) x0 x1 (ix2 r u) = Cert.Spec.weightCol fs fd (ix2 e u') := by
  rw [weightPay1_apply, Cert.Spec.weightCol_apply]
  unfold Cert.Spec.sqDist
  exact congrArg (fun s => Cert.Dilation.weightOf (Ideal.sqrt s)) (Finset.sum_congr rfl fun k _ => by rw [h0 k, h1 k])

/-- The same at any index `y` of the block and `i` of the array whose rows correspond. -/
theorem weightPay1_eq_weightCol (fs fd : S1600000x64.Idx → EReal) (x0 x1 : Vec Ideal S16000x64 .f32)
    (y : S16000x1.Idx) (i : S1600000x1.Idx)
    (h0 : ∀ k : Fin 64, x0 (ix2 (y 0) k) = fs (ix2 (i 0) k)) (h1 : ∀ k : Fin 64, x1 (ix2 (y 0) k) = fd (ix2 (i 0) k)) :
    k1_pay1 (F := Ideal) x0 x1 y = Cert.Spec.weightCol fs fd i :=
  (congrArg (k1_pay1 (F := Ideal) x0 x1) (eq_ix2 y)).trans
    ((weightPay1_eq_weightCol_ix fs fd x0 x1 (y 0) (y 1) (i 0) (i 1) h0 h1).trans
      (congrArg (Cert.Spec.weightCol fs fd) (eq_ix2 i).symm))

variable (V : (c : Dev nD) → (b : Ref sig .tc) → Buf (Elt Ideal) ((c : Thread nD τ).loc b))

/-! ## The first edge-weight region -/

/-- The block indices of the first edge-weight region's three windows, over its 100 points: on the row axis all three
    are the point's number, on the lane axis all three are 0. -/
theorem blockIdx1 : ∀ t : Fin cfg1.N, win1_0.index t (0 : Fin 2) = win1_2.index t (0 : Fin 2)
    ∧ win1_1.index t (0 : Fin 2) = win1_2.index t (0 : Fin 2)
    ∧ win1_0.index t (1 : Fin 2) = 0 ∧ win1_1.index t (1 : Fin 2) = 0 ∧ win1_2.index t (1 : Fin 2) = 0
    ∧ win1_2.index t (0 : Fin 2) = t.val :=
  (by decide +kernel : ∀ t : Fin grid1.N, _)

/-- What point `t` writes back is block `t` of the weight column of the two arrays as the region finds them. -/
theorem flushed1_eq (c : Dev nD) (t : Fin cfg1.N) :
    (dat1 (F := Ideal) V c).flushed 2 t
      = ((cfg1.win 2).blk t).view.read (Elt Ideal) (Cert.Spec.weightCol (V c main_v19) (V c main_v26)) := by
  show (cfg1.win 2).cut (grid1.coords t) ((dat1 V c).after 2 t) = _
  rw [after1_2]
  unfold out1_2
  rw [View.canon_unit_zero zeroOffsets]
  simp only [View.ld_unit_zero (S := S16000x64) zeroOffsets]
  obtain ⟨e0, e1, e2, e3, e4, e5⟩ := blockIdx1 t
  funext j
  show k1_pay1 (iblk1 V c 0 t) (iblk1 V c 1 t) j
    = Cert.Spec.weightCol (V c main_v19) (V c main_v26) (((cfg1.win 2).blk t).view.emb j)
  refine weightPay1_eq_weightCol _ _ _ _ j _ (fun k => ?_) (fun k => ?_)
  · show V c main_v19 (((cfg1.win 0).blk t).view.emb (ix2 (j 0) k)) = V c main_v19 (ix2 ((((cfg1.win 2).blk t).view.emb j) 0) k)
    refine congrArg (V c main_v19) ?_
    funext a; apply Fin.ext
    match a with
    | ⟨0, _⟩ => show win1_0.index t (0 : Fin 2) * 16000 + 1 * (j 0).val = win1_2.index t (0 : Fin 2) * 16000 + 1 * (j 0).val; omega
    | ⟨1, _⟩ => show win1_0.index t (1 : Fin 2) * 64 + 1 * k.val = k.val; omega
  · show V c main_v26 (((cfg1.win 1).blk t).view.emb (ix2 (j 0) k)) = V c main_v26 (ix2 ((((cfg1.win 2).blk t).view.emb j) 0) k)
    refine congrArg (V c main_v26) ?_
    funext a; apply Fin.ext
    match a with
    | ⟨0, _⟩ => show win1_1.index t (0 : Fin 2) * 16000 + 1 * (j 0).val = win1_2.index t (0 : Fin 2) * 16000 + 1 * (j 0).val; omega
    | ⟨1, _⟩ => show win1_1.index t (1 : Fin 2) * 64 + 1 * k.val = k.val; omega

/-- An index of the weight column is in point `t`'s block iff each coordinate is in the block's range on its axis. -/
theorem mem_block1 (t : Fin cfg1.N) (i : S1600000x1.Idx) :
    i ∈ ((cfg1.win 2).blk t).view.set ↔ ∀ a : Fin 2, win1_2.index t a * S16000x1.size a ≤ (i a).val ∧ (i a).val < win1_2.index t a * S16000x1.size a + S16000x1.size a := by
  show i ∈ ((View.whole main_v27).slice (win1_2.rect t)).set ↔ _
  rw [View.set_slice_whole, Rect.mem_set_unit]
  exact Iff.rfl

/-- Every row `e` of the weight column lies in the block of the point `e / 16000`, which writes back. -/
theorem cover1 (i : S1600000x1.Idx) :
    ∃ t : Fin cfg1.N, (cfg1.win 2).flush t = true ∧ i ∈ ((cfg1.win 2).blk t).view.set := by
  have hi0 : (i 0).val < 1600000 := (i 0).isLt
  have hi1 : (i 1).val < 1 := (i 1).isLt
  have hN : grid1.N = 100 := N_1
  let t : Fin cfg1.N := ⟨(i 0).val / 16000, by show (i 0).val / 16000 < grid1.N; omega⟩
  obtain ⟨e0, e1, e2, e3, e4, e5⟩ := blockIdx1 t
  have ht : t.val = (i 0).val / 16000 := rfl
  refine ⟨t, flush1_2 t, ?_⟩
  rw [mem_block1]
  intro a
  match a with
  | ⟨0, _⟩ => show win1_2.index t (0 : Fin 2) * 16000 ≤ (i 0).val ∧ (i 0).val < win1_2.index t (0 : Fin 2) * 16000 + 16000; omega
  | ⟨1, _⟩ => show win1_2.index t (1 : Fin 2) * 1 ≤ (i 1).val ∧ (i 1).val < win1_2.index t (1 : Fin 2) * 1 + 1; omega

/-- THE WEIGHT COLUMN after the first edge-weight region: at every index, the weight of the two gathered
    endpoint-feature arrays as the region finds them. -/
theorem final1 (c : Dev nD) :
    (dat1 (F := Ideal) V c).arrAt 2 cfg1.N = Cert.Spec.weightCol (V c main_v19) (V c main_v26) :=
  (dat1 (F := Ideal) V c).arrAt_eq_of_cover 2 (Cert.Spec.weightCol (V c main_v19) (V c main_v26))
    (fun t _ => flushed1_eq V c t) cover1

/-! ## The second edge-weight region -/

/-- The block indices of the second edge-weight region's three windows, over its 100 points: on the row axis all three
    are the point's number, on the lane axis all three are 0. -/
theorem blockIdx3 : ∀ t : Fin cfg3.N, win3_0.index t (0 : Fin 2) = win3_2.index t (0 : Fin 2)
    ∧ win3_1.index t (0 : Fin 2) = win3_2.index t (0 : Fin 2)
    ∧ win3_0.index t (1 : Fin 2) = 0 ∧ win3_1.index t (1 : Fin 2) = 0 ∧ win3_2.index t (1 : Fin 2) = 0
    ∧ win3_2.index t (0 : Fin 2) = t.val :=
  (by decide +kernel : ∀ t : Fin grid3.N, _)

/-- What point `t` writes back is block `t` of the weight column of the two arrays as the region finds them. -/
theorem flushed3_eq (c : Dev nD) (t : Fin cfg3.N) :
    (dat3 (F := Ideal) V c).flushed 2 t
      = ((cfg3.win 2).blk t).view.read (Elt Ideal) (Cert.Spec.weightCol (V c main_v52) (V c main_v59)) := by
  show (cfg3.win 2).cut (grid3.coords t) ((dat3 V c).after 2 t) = _
  rw [after3_2]
  unfold out3_2
  rw [View.canon_unit_zero zeroOffsets]
  simp only [View.ld_unit_zero (S := S16000x64) zeroOffsets]
  obtain ⟨e0, e1, e2, e3, e4, e5⟩ := blockIdx3 t
  funext j
  show k1_pay1 (iblk3 V c 0 t) (iblk3 V c 1 t) j
    = Cert.Spec.weightCol (V c main_v52) (V c main_v59) (((cfg3.win 2).blk t).view.emb j)
  refine weightPay1_eq_weightCol _ _ _ _ j _ (fun k => ?_) (fun k => ?_)
  · show V c main_v52 (((cfg3.win 0).blk t).view.emb (ix2 (j 0) k)) = V c main_v52 (ix2 ((((cfg3.win 2).blk t).view.emb j) 0) k)
    refine congrArg (V c main_v52) ?_
    funext a; apply Fin.ext
    match a with
    | ⟨0, _⟩ => show win3_0.index t (0 : Fin 2) * 16000 + 1 * (j 0).val = win3_2.index t (0 : Fin 2) * 16000 + 1 * (j 0).val; omega
    | ⟨1, _⟩ => show win3_0.index t (1 : Fin 2) * 64 + 1 * k.val = k.val; omega
  · show V c main_v59 (((cfg3.win 1).blk t).view.emb (ix2 (j 0) k)) = V c main_v59 (ix2 ((((cfg3.win 2).blk t).view.emb j) 0) k)
    refine congrArg (V c main_v59) ?_
    funext a; apply Fin.ext
    match a with
    | ⟨0, _⟩ => show win3_1.index t (0 : Fin 2) * 16000 + 1 * (j 0).val = win3_2.index t (0 : Fin 2) * 16000 + 1 * (j 0).val; omega
    | ⟨1, _⟩ => show win3_1.index t (1 : Fin 2) * 64 + 1 * k.val = k.val; omega

/-- An index of the weight column is in point `t`'s block iff each coordinate is in the block's range on its axis. -/
theorem mem_block3 (t : Fin cfg3.N) (i : S1600000x1.Idx) :
    i ∈ ((cfg3.win 2).blk t).view.set ↔ ∀ a : Fin 2, win3_2.index t a * S16000x1.size a ≤ (i a).val ∧ (i a).val < win3_2.index t a * S16000x1.size a + S16000x1.size a := by
  show i ∈ ((View.whole main_v60).slice (win3_2.rect t)).set ↔ _
  rw [View.set_slice_whole, Rect.mem_set_unit]
  exact Iff.rfl

/-- Every row `e` of the weight column lies in the block of the point `e / 16000`, which writes back. -/
theorem cover3 (i : S1600000x1.Idx) :
    ∃ t : Fin cfg3.N, (cfg3.win 2).flush t = true ∧ i ∈ ((cfg3.win 2).blk t).view.set := by
  have hi0 : (i 0).val < 1600000 := (i 0).isLt
  have hi1 : (i 1).val < 1 := (i 1).isLt
  have hN : grid3.N = 100 := N_3
  let t : Fin cfg3.N := ⟨(i 0).val / 16000, by show (i 0).val / 16000 < grid3.N; omega⟩
  obtain ⟨e0, e1, e2, e3, e4, e5⟩ := blockIdx3 t
  have ht : t.val = (i 0).val / 16000 := rfl
  refine ⟨t, flush3_2 t, ?_⟩
  rw [mem_block3]
  intro a
  match a with
  | ⟨0, _⟩ => show win3_2.index t (0 : Fin 2) * 16000 ≤ (i 0).val ∧ (i 0).val < win3_2.index t (0 : Fin 2) * 16000 + 16000; omega
  | ⟨1, _⟩ => show win3_2.index t (1 : Fin 2) * 1 ≤ (i 1).val ∧ (i 1).val < win3_2.index t (1 : Fin 2) * 1 + 1; omega

/-- THE WEIGHT COLUMN after the second edge-weight region: at every index, the weight of the two gathered
    endpoint-feature arrays as the region finds them. -/
theorem final3 (c : Dev nD) :
    (dat3 (F := Ideal) V c).arrAt 2 cfg3.N = Cert.Spec.weightCol (V c main_v52) (V c main_v59) :=
  (dat3 (F := Ideal) V c).arrAt_eq_of_cover 2 (Cert.Spec.weightCol (V c main_v52) (V c main_v59))
    (fun t _ => flushed3_eq V c t) cover3

end Cert.KernelIdeal.WeightArray

end
-- ==== Proof.KernelClosed.lean ====
/-
  The kernel program's result as one function of its argument arrays.

  Each region's output array is the specification's function of the region's input arrays as the region finds
  them: the dense layer of the features, the weight matrix and the bias row; the weight column of the two gathered
  endpoint-feature arrays. Substituting these into the boundaries' contents gives the result as layer 2's stages
  of the dense layer and the weight column of the hidden features, the hidden features being layer 1's stages of
  the dense layer and the weight column of the input features.
-/
import proofs.«144737_j16149077033547_2_alg».proof.Proof.KernelValueB
import proofs.«144737_j16149077033547_2_alg».proof.Proof.DenseArray
import proofs.«144737_j16149077033547_2_alg».proof.Proof.WeightArray

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first dense region's output: the dense layer of the input features. -/
theorem dense_out1 : (dat0 (V3 m ρ) c).arrAt 3 cfg0.N
    = Cert.Spec.dense (m ((c : Thread nD τ).loc main_arg0)) (m ((c : Thread nD τ).loc main_arg2)) (shapeCast S1x64 (m ((c : Thread nD τ).loc main_arg3)) shapeCasts_S64_S1x64) := by
  refine (DenseArray.final0 (V3 m ρ) c).trans ?_
  show Cert.Spec.dense (W3 m ρ c (Proc.devRef .tc main_arg0)) (W3 m ρ c (Proc.devRef .tc main_arg2)) (W3 m ρ c (Proc.devRef .tc main_v11)) = _
  rw [arg0_3, arg2_3, v11_3]

/-- The first edge-weight region's output: the weight column of the input features gathered at the edges' ends. -/
theorem weight_out1 : (dat1 (V5 m ρ) c).arrAt 2 cfg1.N
    = Cert.Spec.weightCol (Cert.ReferenceIdeal.Read.val_main_v14 (F := Ideal) (m ((c : Thread nD τ).loc main_arg0)) (m ((c : Thread nD τ).loc main_arg1))) (Cert.ReferenceIdeal.Read.val_main_v21 (F := Ideal) (m ((c : Thread nD τ).loc main_arg0)) (m ((c : Thread nD τ).loc main_arg1))) := by
  refine (WeightArray.final1 (V5 m ρ) c).trans ?_
  show Cert.Spec.weightCol (W5 m ρ c (Proc.devRef .tc main_v19)) (W5 m ρ c (Proc.devRef .tc main_v26)) = _
  rw [v19_5, v26_5]

/-- The hidden features as a function of the argument arrays. -/
theorem hid_eq : hid m ρ c = (Cert.Stage.hidden (Cert.Spec.dense (m ((c : Thread nD τ).loc main_arg0)) (m ((c : Thread nD τ).loc main_arg2)) (shapeCast S1x64 (m ((c : Thread nD τ).loc main_arg3)) shapeCasts_S64_S1x64))
      (Cert.Spec.weightCol (Cert.ReferenceIdeal.Read.val_main_v14 (F := Ideal) (m ((c : Thread nD τ).loc main_arg0)) (m ((c : Thread nD τ).loc main_arg1))) (Cert.ReferenceIdeal.Read.val_main_v21 (F := Ideal) (m ((c : Thread nD τ).loc main_arg0)) (m ((c : Thread nD τ).loc main_arg1)))) (m ((c : Thread nD τ).loc main_arg1))) := by
  show Cert.Stage.hidden ((dat0 (V3 m ρ) c).arrAt 3 cfg0.N) ((dat1 (V5 m ρ) c).arrAt 2 cfg1.N) (m ((c : Thread nD τ).loc main_arg1)) = _
  rw [dense_out1, weight_out1]

/-- The second dense region's output: the dense layer of the hidden features. -/
theorem dense_out2 : (dat2 (V9 m ρ) c).arrAt 3 cfg2.N
    = Cert.Spec.dense (hid m ρ c) (m ((c : Thread nD τ).loc main_arg4)) (shapeCast S1x32 (m ((c : Thread nD τ).loc main_arg5)) shapeCasts_S32_S1x32) := by
  refine (DenseArray.final2 (V9 m ρ) c).trans ?_
  show Cert.Spec.dense (W9 m ρ c (Proc.devRef .tc main_v43)) (W9 m ρ c (Proc.devRef .tc main_arg4)) (W9 m ρ c (Proc.devRef .tc main_v44)) = _
  rw [v43_9, arg4_9, v44_9]

/-- The second edge-weight region's output: the weight column of the hidden features gathered at the edges' ends. -/
theorem weight_out2 : (dat3 (V11 m ρ) c).arrAt 2 cfg3.N
    = Cert.Spec.weightCol
        (Host.gather (α := Ideal .f32) Cert.ReferenceIdeal.gather_S100000x64_S1600000x1_S1600000x64_1_0_n_n_0_1_164 (hid m ρ c) (Cert.ReferenceIdeal.Read.val_main_v72 (F := Ideal) (m ((c : Thread nD τ).loc main_arg1))))
        (Host.gather (α := Ideal .f32) Cert.ReferenceIdeal.gather_S100000x64_S1600000x1_S1600000x64_1_0_n_n_0_1_164 (hid m ρ c) (Cert.ReferenceIdeal.Read.val_main_v79 (F := Ideal) (m ((c : Thread nD τ).loc main_arg1)))) := by
  refine (WeightArray.final3 (V11 m ρ) c).trans ?_
  show Cert.Spec.weightCol (W11 m ρ c (Proc.devRef .tc main_v52)) (W11 m ρ c (Proc.devRef .tc main_v59)) = _
  rw [v52_11, v59_11]

/-- THE RESULT of the kernel program, as a function of its argument arrays. -/
theorem result_eq : W13 m ρ c (Proc.devRef .tc main_v75)
    = Cert.Stage.out2
        (Cert.Spec.dense (Cert.Stage.hidden (Cert.Spec.dense (m ((c : Thread nD τ).loc main_arg0)) (m ((c : Thread nD τ).loc main_arg2)) (shapeCast S1x64 (m ((c : Thread nD τ).loc main_arg3)) shapeCasts_S64_S1x64))
      (Cert.Spec.weightCol (Cert.ReferenceIdeal.Read.val_main_v14 (F := Ideal) (m ((c : Thread nD τ).loc main_arg0)) (m ((c : Thread nD τ).loc main_arg1))) (Cert.ReferenceIdeal.Read.val_main_v21 (F := Ideal) (m ((c : Thread nD τ).loc main_arg0)) (m ((c : Thread nD τ).loc main_arg1)))) (m ((c : Thread nD τ).loc main_arg1))) (m ((c : Thread nD τ).loc main_arg4)) (shapeCast S1x32 (m ((c : Thread nD τ).loc main_arg5)) shapeCasts_S32_S1x32))
        (Cert.Spec.weightCol
          (Host.gather (α := Ideal .f32) Cert.ReferenceIdeal.gather_S100000x64_S1600000x1_S1600000x64_1_0_n_n_0_1_164 (Cert.Stage.hidden (Cert.Spec.dense (m ((c : Thread nD τ).loc main_arg0)) (m ((c : Thread nD τ).loc main_arg2)) (shapeCast S1x64 (m ((c : Thread nD τ).loc main_arg3)) shapeCasts_S64_S1x64))
      (Cert.Spec.weightCol (Cert.ReferenceIdeal.Read.val_main_v14 (F := Ideal) (m ((c : Thread nD τ).loc main_arg0)) (m ((c : Thread nD τ).loc main_arg1))) (Cert.ReferenceIdeal.Read.val_main_v21 (F := Ideal) (m ((c : Thread nD τ).loc main_arg0)) (m ((c : Thread nD τ).loc main_arg1)))) (m ((c : Thread nD τ).loc main_arg1))) (Cert.ReferenceIdeal.Read.val_main_v72 (F := Ideal) (m ((c : Thread nD τ).loc main_arg1))))
          (Host.gather (α := Ideal .f32) Cert.ReferenceIdeal.gather_S100000x64_S1600000x1_S1600000x64_1_0_n_n_0_1_164 (Cert.Stage.hidden (Cert.Spec.dense (m ((c : Thread nD τ).loc main_arg0)) (m ((c : Thread nD τ).loc main_arg2)) (shapeCast S1x64 (m ((c : Thread nD τ).loc main_arg3)) shapeCasts_S64_S1x64))
      (Cert.Spec.weightCol (Cert.ReferenceIdeal.Read.val_main_v14 (F := Ideal) (m ((c : Thread nD τ).loc main_arg0)) (m ((c : Thread nD τ).loc main_arg1))) (Cert.ReferenceIdeal.Read.val_main_v21 (F := Ideal) (m ((c : Thread nD τ).loc main_arg0)) (m ((c : Thread nD τ).loc main_arg1)))) (m ((c : Thread nD τ).loc main_arg1))) (Cert.ReferenceIdeal.Read.val_main_v79 (F := Ideal) (m ((c : Thread nD τ).loc main_arg1)))))
        (m ((c : Thread nD τ).loc main_arg1)) := by
  rw [v75_13, dense_out2, weight_out2, hid_eq]

end Cert.KernelIdeal.Value

end
-- ==== Proof.DenseBridge.lean ====
/-
  The reference's dense layers and degree normalisation, in the form the kernel side produces them.

  The dense layer. The reference computes each layer's pre-aggregation features as the product of a feature array
  with a weight matrix plus a bias vector repeated over the rows. Read at (p, q) this is the sum over k of
  x (p, k) · w (k, q), plus b q, which is the dense layer of the specification applied to the features, the weights
  and the bias vector laid out as a one-row array (entry (0, q) of the row is b q).

  The normalisation. The reference divides every row of the aggregated features by its node's degree clipped from
  below at 1; the kernel program multiplies by the reciprocal of that clipped degree instead. The clipped degree is
  at least 1, so not 0, and for a nonzero divisor d the product a · (1 / d) is the quotient a / d for every extended
  real a. The reference computes the clipped degree once per layer, by the same operations on the same edges, so the
  two computations are the same array.
-/
import proofs.«144737_j16149077033547_2_alg».proof.Proof.Gen.ReferenceIdeal.Read
import proofs.«144737_j16149077033547_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Dense

open Cert.ReferenceIdeal Cert.ReferenceIdeal.Gen Cert.ReferenceIdeal.Read Idealize.ShloMosaic Idealize.ShloMosaic.ValueIdx

/-- The first dense layer: the reference's product of the features with the weights, plus its bias vector broadcast
    over the rows, is the dense layer of the features, the weights and the bias vector laid out as a one-row array:
    at (p, q) both are the sum over k of x0 (p, k) · x2 (k, q), plus x3 q. -/
theorem dense1 (x0 : (⟨S100000x64, .f32⟩ : BufTy).Contents (Elt Ideal)) (x2 : (⟨S64x64, .f32⟩ : BufTy).Contents (Elt Ideal))
    (x3 : (⟨S64, .f32⟩ : BufTy).Contents (Elt Ideal)) (hc : (⟨1, ![64]⟩ : Shape).ShapeCasts ⟨2, ![1, 64]⟩) :
    Cert.Spec.dense x0 x2 (shapeCast ⟨2, ![1, 64]⟩ x3 hc) = val_main_v7 (F := Ideal) x0 x2 x3 := by
  funext i
  obtain ⟨p, q, rfl⟩ : ∃ (p : Fin 100000) (q : Fin 64), i = ix2 p q := ⟨i 0, i 1, eq_ix2 i⟩
  have hl : ∀ k : Fin 64, lidx_main_v4 (ix2 p q) k = ix2 p k := fun k => funext fun a => Fin.ext (by
    match a with
    | ⟨0, _⟩ => rfl
    | ⟨1, _⟩ => rfl)
  have hr : ∀ k : Fin 64, ridx_main_v4 (ix2 p q) k = ix2 k q := fun k => funext fun a => Fin.ext (by
    match a with
    | ⟨0, _⟩ => rfl
    | ⟨1, _⟩ => rfl)
  have hb : idx_main_v5 (idx_main_v6 (ix2 p q)) = ix1 q := funext fun a => Fin.ext (by
    match a with
    | ⟨0, _⟩ => rfl)
  rw [Cert.Spec.dense_apply, shapeCast_a_1a_apply, val_main_v7_apply, val_main_v4_apply, val_main_v6_apply,
    val_main_v5_apply, Ideal.addf_def, hb]
  refine congrArg₂ (· + ·) (Finset.sum_congr rfl fun k _ => ?_) rfl
  rw [hl, hr]

/-- The second layer's product read at an index, for any left operand: at i it is the sum over k of
    h (i 0, k) · x4 (k, i 1). (The contraction shape has the one axis of extent 64; the operand indices at output i
    and contraction position k are (i 0, k) and (k, i 1).) -/
theorem dot2_apply (h : FVec Ideal S100000x64 .f32) (x4 : (⟨S64x32, .f32⟩ : BufTy).Contents (Elt Ideal)) (i : S100000x32.Idx) :
    Host.dotGeneral (F := Ideal) (φ₁ := .f32) (φ₂ := .f32) dot_S100000x64_S64x32_S100000x32_1_0_0_1_n_n none h x4 i
      = ∑ k : Fin 64, h (lidx_main_v63 i k) * x4 (ridx_main_v63 i k) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = lidx_main_v63 i k := funext fun a => Fin.ext (by
    match a with
    | ⟨0, _⟩ => exact lhs_main_v63_0 _ _
    | ⟨1, _⟩ => exact (lhs_main_v63_1 _ _).trans hk)
  have er : dot_S100000x64_S64x32_S100000x32_1_0_0_1_n_n.rhsIdx i ((ValueIdx.contrEquiv1 dot_S100000x64_S64x32_S100000x32_1_0_0_1_n_n 64 rfl rfl).symm k) = ridx_main_v63 i k := funext fun a => Fin.ext (by
    match a with
    | ⟨0, _⟩ => exact (rhs_main_v63_0 _ _).trans hk
    | ⟨1, _⟩ => exact rhs_main_v63_1 _ _)
  rw [el, er]

/-- The second dense layer, for any hidden features h: the product of h with the weights plus the reference's bias
    vector broadcast over the rows is the dense layer of h, the weights and the bias vector laid out as a one-row
    array: at (p, q) both are the sum over k of h (p, k) · x4 (k, q), plus x5 q. -/
theorem dense2 (h : FVec Ideal S100000x64 .f32) (x4 : (⟨S64x32, .f32⟩ : BufTy).Contents (Elt Ideal))
    (x5 : (⟨S32, .f32⟩ : BufTy).Contents (Elt Ideal)) (hc : (⟨1, ![32]⟩ : Shape).ShapeCasts ⟨2, ![1, 32]⟩) :
    Cert.Spec.dense h x4 (shapeCast ⟨2, ![1, 32]⟩ x5 hc)
      = addf (F := Ideal) (φ := .f32) (Host.dotGeneral (F := Ideal) (φ₁ := .f32) (φ₂ := .f32) dot_S100000x64_S64x32_S100000x32_1_0_0_1_n_n none h x4) (val_main_v65 (F := Ideal) x5) := by
  funext i
  obtain ⟨p, q, rfl⟩ : ∃ (p : Fin 100000) (q : Fin 32), i = ix2 p q := ⟨i 0, i 1, eq_ix2 i⟩
  have hl : ∀ k : Fin 64, lidx_main_v63 (ix2 p q) k = ix2 p k := fun k => funext fun a => Fin.ext (by
    match a with
    | ⟨0, _⟩ => rfl
    | ⟨1, _⟩ => rfl)
  have hr : ∀ k : Fin 64, ridx_main_v63 (ix2 p q) k = ix2 k q := fun k => funext fun a => Fin.ext (by
    match a with
    | ⟨0, _⟩ => rfl
    | ⟨1, _⟩ => rfl)
  have hb : idx_main_v64 (idx_main_v65 (ix2 p q)) = ix1 q := funext fun a => Fin.ext (by
    match a with
    | ⟨0, _⟩ => rfl)
  rw [Cert.Spec.dense_apply, shapeCast_a_1a_apply, ValueIdx.addf_apply, dot2_apply, val_main_v65_apply,
    val_main_v64_apply, hb]
  refine congrArg₂ (· + ·) (Finset.sum_congr rfl fun k _ => ?_) rfl
  rw [hl, hr]

/-- At the reference's own hidden features the right side is the reference's second pre-aggregation stage. -/
theorem dense2' (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (hc : (⟨1, ![32]⟩ : Shape).ShapeCasts ⟨2, ![1, 32]⟩) :
    Cert.Spec.dense (val_main_v58 (F := Ideal) x0 x1 x2 x3) x4 (shapeCast ⟨2, ![1, 32]⟩ x5 hc)
      = val_main_v66 (F := Ideal) x0 x1 x2 x3 x4 x5 :=
  dense2 (val_main_v58 (F := Ideal) x0 x1 x2 x3) x4 x5 hc

/-- The constant 1 broadcast to every node, read at a node. -/
theorem ones_apply (j : S100000.Idx) :
    broadcastInDim (α := Ideal .f32) S100000 ![] bcast_S_S100000 (constant (F := Ideal) S_ .f32 0x3F800000#32) j
      = Ideal.ofBits .f32 0x3F800000#32 :=
  (broadcastInDim_apply _ bcast_S_S100000 _ j (fun a => a.elim0) (fun a => a.elim0)).trans rfl

/-- The array of ones divided by an array d, read at a node: 1 / d j. -/
theorem recip_apply (d : FVec Ideal S100000 .f32) (j : S100000.Idx) :
    Host.divf (F := Ideal) (φ := .f32)
        (broadcastInDim (α := Ideal .f32) S100000 ![] bcast_S_S100000 (constant (F := Ideal) S_ .f32 0x3F800000#32)) d j
      = Ideal.div (Ideal.ofBits .f32 0x3F800000#32) (d j) := by
  show Ideal.div (broadcastInDim (α := Ideal .f32) S100000 ![] bcast_S_S100000 (constant (F := Ideal) S_ .f32 0x3F800000#32) j) (d j) = _
  rw [ones_apply]

/-- The maximum of the reference's array of ones and an array d, read at a node: max 1 (d j). -/
theorem clip_apply (d : FVec Ideal S100000 .f32) (j : S100000.Idx) :
    maximumf (F := Ideal) (φ := .f32) (val_main_call1_v1 (F := Ideal)) d j = max (Ideal.ofBits .f32 0x3F800000#32) (d j) := by
  show max (val_main_call1_v1 (F := Ideal) j) (d j) = _
  rw [val_main_call1_v1_apply, val_main_call1_v0_apply, val_main_cst_12_apply]
  rfl

/-- The degree of every node clipped from below at 1. -/
theorem clipDeg_apply (x1 : (⟨S2x1600000, .i32⟩ : BufTy).Contents (Elt Ideal)) (j : S100000.Idx) :
    val_main_v54 (F := Ideal) x1 j = max (Ideal.ofBits .f32 0x3F800000#32) (val_main_v53 (F := Ideal) x1 j) := by
  unfold val_main_v54
  exact clip_apply (val_main_v53 (F := Ideal) x1) j

/-- The reciprocal of the clipped degree at a node: 1 divided by the maximum of 1 and the degree. -/
theorem invDeg_apply (x1 : (⟨S2x1600000, .i32⟩ : BufTy).Contents (Elt Ideal)) (j : S100000.Idx) :
    Cert.Stage.invDeg x1 j
      = Ideal.div (Ideal.ofBits .f32 0x3F800000#32) (max (Ideal.ofBits .f32 0x3F800000#32) (val_main_v53 (F := Ideal) x1 j)) := by
  unfold Cert.Stage.invDeg
  refine (recip_apply (val_main_v54 (F := Ideal) x1) j).trans ?_
  rw [clipDeg_apply]

/-- A per-node array laid out as a column and repeated along 64 columns reads, at (p, q), the node p's entry. -/
theorem rows64_apply (y : FVec Ideal S100000 .f32) (i : S100000x64.Idx) :
    broadcastInDim (α := Ideal .f32) S100000x64 ![0, 1] bcast_S100000x1_S100000x64_0_1
        (broadcastInDim (α := Ideal .f32) S100000x1 ![0] bcast_S100000_S100000x1_0 y) i
      = y (idx_main_v55 (idx_main_v56 i)) := by
  refine (broadcastInDim_apply _ bcast_S100000x1_S100000x64_0_1 _ i (idx_main_v56 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 y (idx_main_v56 i) (idx_main_v55 (idx_main_v56 i)) (fun a => match a with
    | ⟨0, _⟩ => by show ((idx_main_v56 i) 0).val = if (100000 : Nat) = 1 then 0 else ((idx_main_v56 i) 0).val; rw [if_neg (by decide)])

/-- The normalisation over arrays: if r is the reciprocal of the clip of g and D is the clip of g, node by node, then
    multiplying every row of A by its node's r is dividing it by its node's D (64 columns). The clip is at least 1,
    so not 0, and a product with the reciprocal of a nonzero divisor is the quotient. -/
theorem norm64_of (A : FVec Ideal S100000x64 .f32) (r D g : FVec Ideal S100000 .f32)
    (hr : ∀ j, r j = Ideal.div (Ideal.ofBits .f32 0x3F800000#32) (max (Ideal.ofBits .f32 0x3F800000#32) (g j)))
    (hD : ∀ j, D j = max (Ideal.ofBits .f32 0x3F800000#32) (g j)) :
    mulf (F := Ideal) (φ := .f32) A (broadcastInDim (α := Ideal .f32) S100000x64 ![0, 1] bcast_S100000x1_S100000x64_0_1
        (broadcastInDim (α := Ideal .f32) S100000x1 ![0] bcast_S100000_S100000x1_0 r))
      = Host.divf (F := Ideal) (φ := .f32) A (broadcastInDim (α := Ideal .f32) S100000x64 ![0, 1] bcast_S100000x1_S100000x64_0_1
        (broadcastInDim (α := Ideal .f32) S100000x1 ![0] bcast_S100000_S100000x1_0 D)) := by
  funext i
  show A i * _ = Ideal.div (A i) _
  rw [rows64_apply r i, rows64_apply D i, hr, hD]
  exact Cert.Dilation.mul_recip_clip _ _

/-- Multiplying every row by the reciprocal of its node's clipped degree is dividing it by the clipped degree
    (64 columns). -/
theorem norm64 (A : FVec Ideal S100000x64 .f32) (x1 : (⟨S2x1600000, .i32⟩ : BufTy).Contents (Elt Ideal)) :
    mulf (F := Ideal) (φ := .f32) A (broadcastInDim (α := Ideal .f32) S100000x64 ![0, 1] bcast_S100000x1_S100000x64_0_1
        (broadcastInDim (α := Ideal .f32) S100000x1 ![0] bcast_S100000_S100000x1_0 (Cert.Stage.invDeg x1)))
      = Host.divf (F := Ideal) (φ := .f32) A (val_main_v56 (F := Ideal) x1) := by
  unfold val_main_v56 val_main_v55
  exact norm64_of A (Cert.Stage.invDeg x1) (val_main_v54 (F := Ideal) x1) (val_main_v53 (F := Ideal) x1)
    (invDeg_apply x1) (clipDeg_apply x1)

/-- The reference computes the degree a second time for the second layer, by the same operations on the same
    edges: the zero array, the array of ones and the destination indices are the same arrays, -/
theorem zeros_again : val_main_v110 (F := Ideal) = val_main_v51 (F := Ideal) := rfl
theorem ones_again : val_main_v109 (F := Ideal) = val_main_v50 (F := Ideal) := rfl
theorem dst_again (x1 : (⟨S2x1600000, .i32⟩ : BufTy).Contents (Elt Ideal)) :
    val_main_v111 (F := Ideal) x1 = val_main_v52 (F := Ideal) x1 := rfl
theorem unit_again : val_main_call4_v1 (F := Ideal) = val_main_call1_v1 (F := Ideal) := rfl

/-- so the degree is the same array, -/
theorem deg_again (x1 : (⟨S2x1600000, .i32⟩ : BufTy).Contents (Elt Ideal)) :
    val_main_v112 (F := Ideal) x1 = val_main_v53 (F := Ideal) x1 := by
  unfold val_main_v112 val_main_v53
  rw [zeros_again, ones_again, dst_again]

/-- and so is its clip from below at 1. -/
theorem clipDeg_again (x1 : (⟨S2x1600000, .i32⟩ : BufTy).Contents (Elt Ideal)) (j : S100000.Idx) :
    val_main_v113 (F := Ideal) x1 j = max (Ideal.ofBits .f32 0x3F800000#32) (val_main_v53 (F := Ideal) x1 j) := by
  unfold val_main_v113
  rw [deg_again, unit_again]
  exact clip_apply (val_main_v53 (F := Ideal) x1) j

/-- A per-node array laid out as a column and repeated along 32 columns reads, at (p, q), the node p's entry. -/
theorem rows32_apply (y : FVec Ideal S100000 .f32) (i : S100000x32.Idx) :
    broadcastInDim (α := Ideal .f32) S100000x32 ![0, 1] bcast_S100000x1_S100000x32_0_1
        (broadcastInDim (α := Ideal .f32) S100000x1 ![0] bcast_S100000_S100000x1_0 y) i
      = y (idx_main_v114 (idx_main_v115 i)) := by
  refine (broadcastInDim_apply _ bcast_S100000x1_S100000x32_0_1 _ i (idx_main_v115 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 y (idx_main_v115 i) (idx_main_v114 (idx_main_v115 i)) (fun a => match a with
    | ⟨0, _⟩ => by show ((idx_main_v115 i) 0).val = if (100000 : Nat) = 1 then 0 else ((idx_main_v115 i) 0).val; rw [if_neg (by decide)])

/-- The normalisation over arrays, 32 columns: if r is the reciprocal of the clip of g and D is the clip of g, node
    by node, then multiplying every row of A by its node's r is dividing it by its node's D. -/
theorem norm32_of (A : FVec Ideal S100000x32 .f32) (r D g : FVec Ideal S100000 .f32)
    (hr : ∀ j, r j = Ideal.div (Ideal.ofBits .f32 0x3F800000#32) (max (Ideal.ofBits .f32 0x3F800000#32) (g j)))
    (hD : ∀ j, D j = max (Ideal.ofBits .f32 0x3F800000#32) (g j)) :
    mulf (F := Ideal) (φ := .f32) A (broadcastInDim (α := Ideal .f32) S100000x32 ![0, 1] bcast_S100000x1_S100000x32_0_1
        (broadcastInDim (α := Ideal .f32) S100000x1 ![0] bcast_S100000_S100000x1_0 r))
      = Host.divf (F := Ideal) (φ := .f32) A (broadcastInDim (α := Ideal .f32) S100000x32 ![0, 1] bcast_S100000x1_S100000x32_0_1
        (broadcastInDim (α := Ideal .f32) S100000x1 ![0] bcast_S100000_S100000x1_0 D)) := by
  funext i
  show A i * _ = Ideal.div (A i) _
  rw [rows32_apply r i, rows32_apply D i, hr, hD]
  exact Cert.Dilation.mul_recip_clip _ _

/-- Multiplying every row by the reciprocal of its node's clipped degree is dividing it by the clipped degree
    (32 columns; the divisor is the reference's second computation of the clipped degree). -/
theorem norm32 (A : FVec Ideal S100000x32 .f32) (x1 : (⟨S2x1600000, .i32⟩ : BufTy).Contents (Elt Ideal)) :
    mulf (F := Ideal) (φ := .f32) A (broadcastInDim (α := Ideal .f32) S100000x32 ![0, 1] bcast_S100000x1_S100000x32_0_1
        (broadcastInDim (α := Ideal .f32) S100000x1 ![0] bcast_S100000_S100000x1_0 (Cert.Stage.invDeg x1)))
      = Host.divf (F := Ideal) (φ := .f32) A (val_main_v115 (F := Ideal) x1) := by
  unfold val_main_v115 val_main_v114
  exact norm32_of A (Cert.Stage.invDeg x1) (val_main_v113 (F := Ideal) x1) (val_main_v53 (F := Ideal) x1)
    (invDeg_apply x1) (clipDeg_again x1)

end Cert.Bridge.Dense

end
-- ==== Proof.WeightBridge.lean ====
/-
  The per-edge factor of the reference and the kernel's weight column are the same numbers.

  Per edge e, with s the sum over k of (fs (e, k) − fd (e, k))², the reference computes the norm n = √(0 + s), the
  velocity v = tanh n · c, the radicand r = 1 − v · v + ε, the factor γ = 1 / √r and its reciprocal 1 / γ, and repeats
  that number along a new unit column and then along the lanes. The kernel's weight column holds √r at (e, 0). Since
  0 + s = s and the reciprocal of the reciprocal of √r is √r (the radicand is a positive real whatever n is), the weight
  column repeated along the lanes is the reference's repeated factor, at every index, in both layers.
-/
import proofs.«144737_j16149077033547_2_alg».proof.Proof.Gen.ReferenceIdeal.Read
import proofs.«144737_j16149077033547_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Bridge.Weight

open Cert.ReferenceIdeal Cert.ReferenceIdeal.Gen Cert.ReferenceIdeal.Read Idealize.ShloMosaic Idealize.ShloMosaic.ValueIdx

/-! ## The scalar chain -/

/-- The reference's chain on one edge: from the squared distance `s`, the norm √(0 + s), the velocity tanh n · c, the
    radicand 1 − v · v + ε, the factor 1 / √radicand, and its reciprocal — which is the weight of the norm √s. -/
theorem recipChain_eq_weightOf (s : EReal) :
    Ideal.div (Ideal.ofBits .f32 0x3F800000#32) (Ideal.div (Ideal.ofBits .f32 0x3F800000#32)
      (Ideal.sqrt (Ideal.ofBits .f32 0x3F800000#32
        - Ideal.tanh (Ideal.sqrt (Ideal.ofBits .f32 0x00000000#32 + s)) * Ideal.ofBits .f32 0x3F666666#32
          * (Ideal.tanh (Ideal.sqrt (Ideal.ofBits .f32 0x00000000#32 + s)) * Ideal.ofBits .f32 0x3F666666#32)
        + Ideal.ofBits .f32 0x358637BD#32)))
      = Cert.Dilation.weightOf (Ideal.sqrt s) := by
  rw [Cert.Dilation.zero_word, zero_add]
  exact Cert.Dilation.recip_recip_weight _

/-- The index the row sum reads at (e, k). -/
theorem sumIdx1 (e : Fin 1600000) (k : Fin 64) : idx_main_call0_v1 (ix1 e) k = ix2 e k :=
  funext fun a => Fin.ext (by match a with | ⟨0, _⟩ => rfl | ⟨1, _⟩ => rfl)

/-- The same for the second layer's row sum. -/
theorem sumIdx2 (e : Fin 1600000) (k : Fin 64) : idx_main_call3_v1 (ix1 e) k = ix2 e k :=
  funext fun a => Fin.ext (by match a with | ⟨0, _⟩ => rfl | ⟨1, _⟩ => rfl)

/-- The host's scalar operations at the extended reals, along the reference's chain, are the extended-real ones. -/
theorem hostChain_def (s one c eps : Ideal .f32) :
    FloatOps.hostDivf one
      (FloatOps.hostDivf one
        (FloatOps.hostUnary HostUnaryOp.sqrt
          (FloatOps.addf
            (FloatOps.subf one
              (FloatOps.mulf
                (FloatOps.mulf (FloatOps.hostUnary HostUnaryOp.tanh (FloatOps.hostUnary HostUnaryOp.sqrt s)) c)
                (FloatOps.mulf (FloatOps.hostUnary HostUnaryOp.tanh (FloatOps.hostUnary HostUnaryOp.sqrt s)) c)))
            eps)))
      = Ideal.div one (Ideal.div one
          (Ideal.sqrt (one - Ideal.tanh (Ideal.sqrt s) * c * (Ideal.tanh (Ideal.sqrt s) * c) + eps))) := rfl

/-! ## The first layer -/

/-- The reference's per-edge factor of the first layer as the scalar chain of the row sum. -/
theorem refTail1 (x0 : (⟨S100000x64, .f32⟩ : BufTy).Contents (Elt Ideal)) (x1 : (⟨S2x1600000, .i32⟩ : BufTy).Contents (Elt Ideal))
    (i : S1600000.Idx) :
    val_main_v36 (F := Ideal) x0 x1 i
      = Ideal.div (Ideal.ofBits .f32 0x3F800000#32) (Ideal.div (Ideal.ofBits .f32 0x3F800000#32)
          (Ideal.sqrt (Ideal.ofBits .f32 0x3F800000#32
            - Ideal.tanh (Ideal.sqrt (val_main_call0_v1 (F := Ideal) x0 x1 i)) * Ideal.ofBits .f32 0x3F666666#32
              * (Ideal.tanh (Ideal.sqrt (val_main_call0_v1 (F := Ideal) x0 x1 i)) * Ideal.ofBits .f32 0x3F666666#32)
            + Ideal.ofBits .f32 0x358637BD#32))) := by
  rw [val_main_v36_apply, val_main_v35_apply, val_main_cst_6_apply, val_main_v34_apply, val_main_v33_apply,
    val_main_cst_5_apply, val_main_v32_apply, val_main_v31_apply, val_main_v30_apply, val_main_cst_4_apply,
    val_main_v29_apply, val_main_v28_apply, val_main_cst_3_apply, val_main_v27_apply, val_main_v26_apply,
    val_main_v25_apply, val_main_cst_apply, val_main_v24_apply, val_main_v23_apply,
    Ideal.ofBits_def, Ideal.ofBits_def, Ideal.ofBits_def]
  exact hostChain_def _ _ _ _

/-- The reference's row sum of the first layer at edge `e`: the zero word plus the squared distance of the two
    gathered endpoint-feature rows. -/
theorem refSum1 (x0 : (⟨S100000x64, .f32⟩ : BufTy).Contents (Elt Ideal)) (x1 : (⟨S2x1600000, .i32⟩ : BufTy).Contents (Elt Ideal))
    (e : Fin 1600000) :
    val_main_call0_v1 (F := Ideal) x0 x1 (ix1 e)
      = Ideal.ofBits .f32 0x00000000#32
        + Cert.Spec.sqDist (val_main_v14 (F := Ideal) x0 x1) (val_main_v21 (F := Ideal) x0 x1) e := by
  rw [val_main_call0_v1_apply, val_main_call0_cst_apply, Ideal.ofBits_def]
  unfold Cert.Spec.sqDist
  refine congrArg (Ideal.ofBits .f32 0x00000000#32 + ·) (Finset.sum_congr rfl fun k _ => ?_)
  rw [sumIdx1, val_main_call0_v0_apply, val_main_v22_apply]
  generalize val_main_v14 (F := Ideal) x0 x1 (ix2 e k) = a
  generalize val_main_v21 (F := Ideal) x0 x1 (ix2 e k) = b
  rfl

/-- The reference's per-edge factor of the first layer, at edge `e`: the weight of the norm of the difference of the
    two gathered endpoint-feature rows. -/
theorem refWeight1_apply (x0 : (⟨S100000x64, .f32⟩ : BufTy).Contents (Elt Ideal)) (x1 : (⟨S2x1600000, .i32⟩ : BufTy).Contents (Elt Ideal))
    (e : Fin 1600000) :
    val_main_v36 (F := Ideal) x0 x1 (ix1 e)
      = Cert.Dilation.weightOf (Ideal.sqrt (Cert.Spec.sqDist (val_main_v14 (F := Ideal) x0 x1) (val_main_v21 (F := Ideal) x0 x1) e)) := by
  rw [refTail1, refSum1]
  exact recipChain_eq_weightOf _

/-- THE FIRST LAYER: the weight column of the two gathered endpoint-feature arrays, repeated along the 64 lanes, is the
    reference's per-edge factor repeated along a unit column and then along the 64 lanes. -/
theorem weight1 (x0 : (⟨S100000x64, .f32⟩ : BufTy).Contents (Elt Ideal)) (x1 : (⟨S2x1600000, .i32⟩ : BufTy).Contents (Elt Ideal)) :
    broadcastInDim (α := Ideal .f32) S1600000x64 ![0, 1] bcast_S1600000x1_S1600000x64_0_1
        (Cert.Spec.weightCol (val_main_v14 (F := Ideal) x0 x1) (val_main_v21 (F := Ideal) x0 x1))
      = val_main_v45 (F := Ideal) x0 x1 := by
  funext i
  obtain ⟨e, c, rfl⟩ : ∃ (e : Fin 1600000) (c : Fin 64), i = ix2 e c := ⟨i 0, i 1, eq_ix2 i⟩
  rw [val_main_v45_apply, val_main_v44_apply,
    show idx_main_v44 (idx_main_v45 (ix2 e c)) = ix1 e from
      funext fun a => Fin.ext (by match a with | ⟨0, _⟩ => rfl),
    refWeight1_apply]
  generalize val_main_v14 (F := Ideal) x0 x1 = fs
  generalize val_main_v21 (F := Ideal) x0 x1 = fd
  rw [broadcastInDim_apply _ bcast_S1600000x1_S1600000x64_0_1 (Cert.Spec.weightCol fs fd) (ix2 e c) (ix2 e (0 : Fin 1)) (fun a => match a with
      | ⟨0, _⟩ => by show e.val = if (1600000 : Nat) = 1 then 0 else e.val; rw [if_neg (by decide)]
      | ⟨1, _⟩ => by show 0 = if (1 : Nat) = 1 then 0 else c.val; rw [if_pos rfl])]
  exact Cert.Spec.weightCol_apply fs fd e 0

/-! ## The second layer -/

/-- The reference's per-edge factor of the second layer as the scalar chain of the row sum. -/
theorem refTail2 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (i : S1600000.Idx) :
    val_main_v95 (F := Ideal) x0 x1 x2 x3 i
      = Ideal.div (Ideal.ofBits .f32 0x3F800000#32) (Ideal.div (Ideal.ofBits .f32 0x3F800000#32)
          (Ideal.sqrt (Ideal.ofBits .f32 0x3F800000#32
            - Ideal.tanh (Ideal.sqrt (val_main_call3_v1 (F := Ideal) x0 x1 x2 x3 i)) * Ideal.ofBits .f32 0x3F666666#32
              * (Ideal.tanh (Ideal.sqrt (val_main_call3_v1 (F := Ideal) x0 x1 x2 x3 i)) * Ideal.ofBits .f32 0x3F666666#32)
            + Ideal.ofBits .f32 0x358637BD#32))) := by
  rw [val_main_v95_apply, val_main_v94_apply, val_main_cst_21_apply, val_main_v93_apply, val_main_v92_apply,
    val_main_cst_20_apply, val_main_v91_apply, val_main_v90_apply, val_main_v89_apply, val_main_cst_19_apply,
    val_main_v88_apply, val_main_v87_apply, val_main_cst_18_apply, val_main_v86_apply, val_main_v85_apply,
    val_main_v84_apply, val_main_cst_17_apply, val_main_v83_apply, val_main_v82_apply,
    Ideal.ofBits_def, Ideal.ofBits_def, Ideal.ofBits_def]
  exact hostChain_def _ _ _ _

/-- The reference's row sum of the second layer at edge `e`: the zero word plus the squared distance of the two
    gathered endpoint-feature rows. -/
theorem refSum2 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (e : Fin 1600000) :
    val_main_call3_v1 (F := Ideal) x0 x1 x2 x3 (ix1 e)
      = Ideal.ofBits .f32 0x00000000#32
        + Cert.Spec.sqDist (val_main_v73 (F := Ideal) x0 x1 x2 x3) (val_main_v80 (F := Ideal) x0 x1 x2 x3) e := by
  rw [val_main_call3_v1_apply, val_main_call3_cst_apply, Ideal.ofBits_def]
  unfold Cert.Spec.sqDist
  refine congrArg (Ideal.ofBits .f32 0x00000000#32 + ·) (Finset.sum_congr rfl fun k _ => ?_)
  rw [sumIdx2, val_main_call3_v0_apply, val_main_v81_apply]
  generalize val_main_v73 (F := Ideal) x0 x1 x2 x3 (ix2 e k) = a
  generalize val_main_v80 (F := Ideal) x0 x1 x2 x3 (ix2 e k) = b
  rfl

/-- The reference's per-edge factor of the second layer, at edge `e`: the weight of the norm of the difference of the
    two gathered endpoint-feature rows. -/
theorem refWeight2_apply (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (e : Fin 1600000) :
    val_main_v95 (F := Ideal) x0 x1 x2 x3 (ix1 e)
      = Cert.Dilation.weightOf (Ideal.sqrt (Cert.Spec.sqDist (val_main_v73 (F := Ideal) x0 x1 x2 x3) (val_main_v80 (F := Ideal) x0 x1 x2 x3) e)) := by
  rw [refTail2, refSum2]
  exact recipChain_eq_weightOf _

/-- THE SECOND LAYER: the weight column of the two gathered endpoint-feature arrays, repeated along the 32 lanes, is the
    reference's per-edge factor repeated along a unit column and then along the 32 lanes. -/
theorem weight2 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) :
    broadcastInDim (α := Ideal .f32) S1600000x32 ![0, 1] bcast_S1600000x1_S1600000x32_0_1
        (Cert.Spec.weightCol (val_main_v73 (F := Ideal) x0 x1 x2 x3) (val_main_v80 (F := Ideal) x0 x1 x2 x3))
      = val_main_v104 (F := Ideal) x0 x1 x2 x3 := by
  funext i
  obtain ⟨e, c, rfl⟩ : ∃ (e : Fin 1600000) (c : Fin 32), i = ix2 e c := ⟨i 0, i 1, eq_ix2 i⟩
  rw [val_main_v104_apply, val_main_v103_apply,
    show idx_main_v103 (idx_main_v104 (ix2 e c)) = ix1 e from
      funext fun a => Fin.ext (by match a with | ⟨0, _⟩ => rfl),
    refWeight2_apply]
  generalize val_main_v73 (F := Ideal) x0 x1 x2 x3 = fs
  generalize val_main_v80 (F := Ideal) x0 x1 x2 x3 = fd
  rw [broadcastInDim_apply _ bcast_S1600000x1_S1600000x32_0_1 (Cert.Spec.weightCol fs fd) (ix2 e c) (ix2 e (0 : Fin 1)) (fun a => match a with
      | ⟨0, _⟩ => by show e.val = if (1600000 : Nat) = 1 then 0 else e.val; rw [if_neg (by decide)]
      | ⟨1, _⟩ => by show 0 = if (1 : Nat) = 1 then 0 else c.val; rw [if_pos rfl])]
  exact Cert.Spec.weightCol_apply fs fd e 0

end Cert.Bridge.Weight

end
-- ==== Proof.Bridge.lean ====
/-
  The two programs compute one function.

  Layer by layer. The dense layer is the reference's matrix product plus its broadcast bias. The weight column,
  repeated along the row, is the reference's reciprocal of the reciprocal of the same square root, repeated the
  same way. Multiplying the aggregated rows by the reciprocal of the clipped degree is dividing by the clipped
  degree. With these three equalities layer 1's hidden features are the reference's, and layer 2 of equal hidden
  features is the reference's result.
-/
import proofs.«144737_j16149077033547_2_alg».proof.Proof.Stages
import proofs.«144737_j16149077033547_2_alg».proof.Proof.DenseBridge
import proofs.«144737_j16149077033547_2_alg».proof.Proof.WeightBridge

noncomputable section

namespace Cert.Bridge

open Cert.ReferenceIdeal Cert.ReferenceIdeal.Gen Cert.ReferenceIdeal.Read Idealize.ShloMosaic

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-- Layer 1: the hidden features of the dense layer and the weight column of the input features are the
    reference's hidden features. -/
theorem hidden_eq (hc : (⟨1, ![64]⟩ : Shape).ShapeCasts ⟨2, ![1, 64]⟩) :
    Cert.Stage.hidden (Cert.Spec.dense x0 x2 (shapeCast ⟨2, ![1, 64]⟩ x3 hc))
        (Cert.Spec.weightCol (val_main_v14 (F := Ideal) x0 x1) (val_main_v21 (F := Ideal) x0 x1)) x1
      = val_main_v58 (F := Ideal) x0 x1 x2 x3 := by
  unfold Cert.Stage.hidden Cert.Stage.out1
  rw [Dense.dense1 x0 x2 x3 hc, Weight.weight1 x0 x1, Dense.norm64]
  unfold val_main_v58 val_main_v57 val_main_v49 val_main_v46 val_main_v43
  rfl

/-- Layer 2 of the reference's hidden features is the reference's result. -/
theorem result_eq (hc : (⟨1, ![32]⟩ : Shape).ShapeCasts ⟨2, ![1, 32]⟩) :
    Cert.Stage.out2
        (Cert.Spec.dense (val_main_v58 (F := Ideal) x0 x1 x2 x3) x4 (shapeCast ⟨2, ![1, 32]⟩ x5 hc))
        (Cert.Spec.weightCol
          (Host.gather (α := Ideal .f32) gather_S100000x64_S1600000x1_S1600000x64_1_0_n_n_0_1_164 (val_main_v58 (F := Ideal) x0 x1 x2 x3) (val_main_v72 (F := Ideal) x1))
          (Host.gather (α := Ideal .f32) gather_S100000x64_S1600000x1_S1600000x64_1_0_n_n_0_1_164 (val_main_v58 (F := Ideal) x0 x1 x2 x3) (val_main_v79 (F := Ideal) x1)))
        x1
      = val_main_v116 (F := Ideal) x0 x1 x2 x3 x4 x5 := by
  have e73 : Host.gather (α := Ideal .f32) gather_S100000x64_S1600000x1_S1600000x64_1_0_n_n_0_1_164 (val_main_v58 (F := Ideal) x0 x1 x2 x3) (val_main_v72 (F := Ideal) x1)
      = val_main_v73 (F := Ideal) x0 x1 x2 x3 := by unfold val_main_v73; rfl
  have e80 : Host.gather (α := Ideal .f32) gather_S100000x64_S1600000x1_S1600000x64_1_0_n_n_0_1_164 (val_main_v58 (F := Ideal) x0 x1 x2 x3) (val_main_v79 (F := Ideal) x1)
      = val_main_v80 (F := Ideal) x0 x1 x2 x3 := by unfold val_main_v80; rfl
  unfold Cert.Stage.out2
  rw [e73, e80, Weight.weight2 x0 x1 x2 x3, Dense.dense2' x0 x1 x2 x3 x4 x5 hc, Dense.norm32]
  unfold val_main_v116 val_main_v108 val_main_v105 val_main_v102
  rfl

end Cert.Bridge

end
-- ==== Proof.lean ====
/-
  A two-layer graph network with time-dilation weights: the kernel program against its reference, at the ideal
  values.

  Each layer computes, for a feature matrix x, the dense layer h = x·W + b; for every edge e from s to d the weight
  w(e) = √(1 − (tanh ‖x_s − x_d‖ · c)² + ε); the sum into every node d of h_s · w(e) over its incoming edges; and
  that sum times the reciprocal of the node's degree clipped from below at 1. Layer 1 ends with the maximum
  against zero, and layer 2 reads layer 1's result.

  The kernel program runs the dense layer and the weights in four kernel regions (the dense layer as a matrix
  product on row blocks plus the bias row; the weights on blocks of edges, as a square root) and everything else
  as host operations. The reference computes the same sums by a host matrix product, writes the weight as the
  reciprocal of the reciprocal of the same square root, and divides by the clipped degree where the kernel
  multiplies by its reciprocal. On the extended reals these agree at every index: tanh maps into [−1, 1], so the
  radicand is a positive real and 1 / (1 / √s) = √s; the clipped degree is at least 1, so not 0, and
  a · (1 / b) = a / b. No finiteness of the inputs is used.

  The frames of the two kernel programs are the generated ones; the reference's frame is its generated run with
  the result dropped; the idealization rewrote no operation.
-/
import proofs.«144737_j16149077033547_2_alg».proof.Defs
import proofs.«144737_j16149077033547_2_alg».proof.Proof.Gen.Kernel
import proofs.«144737_j16149077033547_2_alg».proof.Proof.Gen.Kernel.Skeleton
import proofs.«144737_j16149077033547_2_alg».proof.Proof.Gen.Kernel.Launch
import proofs.«144737_j16149077033547_2_alg».proof.Proof.Gen.Kernel.Points
import proofs.«144737_j16149077033547_2_alg».proof.Proof.Gen.Kernel.Frame
import proofs.«144737_j16149077033547_2_alg».proof.Proof.Gen.KernelIdeal
import proofs.«144737_j16149077033547_2_alg».proof.Proof.Gen.KernelIdeal.Skeleton
import proofs.«144737_j16149077033547_2_alg».proof.Proof.Gen.KernelIdeal.Launch
import proofs.«144737_j16149077033547_2_alg».proof.Proof.Gen.KernelIdeal.Points
import proofs.«144737_j16149077033547_2_alg».proof.Proof.Gen.KernelIdeal.Frame
import proofs.«144737_j16149077033547_2_alg».proof.Proof.Gen.ReferenceIdeal
import proofs.«144737_j16149077033547_2_alg».proof.Proof.Gen.ReferenceIdeal.Run
import proofs.«144737_j16149077033547_2_alg».proof.Proof.Gen.ReferenceIdeal.Read
import proofs.«144737_j16149077033547_2_alg».proof.Proof.Gen.Pre_finite_inputs
import proofs.«144737_j16149077033547_2_alg».proof.Proof.KernelRun
import proofs.«144737_j16149077033547_2_alg».proof.Proof.KernelClosed
import proofs.«144737_j16149077033547_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program's frame. -/
theorem frame_kernel : Cert.frame_Kernel := fun m ρ _ => Cert.Kernel.Gen.frame m ρ

/-- The idealized kernel program's frame. -/
theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's result, as a function of its argument arrays, is the reference's last stage of them. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W13 m ρ c (Proc.devRef .tc Cert.KernelIdeal.main_v75)
      = Cert.ReferenceIdeal.Read.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Value.result_eq m ρ c, Cert.Bridge.hidden_eq]
  exact Cert.Bridge.result_eq _ _ _ _ _ _ _

/-- Both programs run from memories agreeing on the arguments and end with equal results. -/
theorem algebraic : Cert.algebraic_KernelIdeal_ReferenceIdeal := by
  intro m ρ m' ρ' _ hagree
  refine ⟨fun c => Cert.ReferenceIdeal.Read.val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v116_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
